-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S128x1024x1024 : Shape := ⟨3, ![128, 1024, 1024]⟩
abbrev S65536 : Shape := ⟨1, ![65536]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel
  bcast_S_S128x1024x1024 : S_.BroadcastsInDim S128x1024x1024 (![] : Fin 0 → Fin S128x1024x1024.rank)
  reducesTo_S128x1024x1024_S_d0_1_2 : S128x1024x1024.ReducesTo [0, 1, 2] S_

variable [Facts]

def fn {F : FTy → Type} [FloatOps F] (main_arg0 : FVec F S65536x16 .f32) (main_arg1 : FVec F S128x1024x1024 .f32) (main_arg2 : IVec S65536 32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S128x1024x1024 .f32 := Host.absf main_arg1
  let main_cst_0 : FVec F S_ .f32 := constant S_ .f32 0x7F800000#32
  let main_v5 : FVec F S128x1024x1024 .f32 := broadcastInDim S128x1024x1024 ![] bcast_S_S128x1024x1024 main_cst_0
  let main_v6 : IVec S128x1024x1024 1 := cmpf .olt main_v4 main_v5
  let main_c_1 : IVec S_ 1 := constantI S_ 1 1#1
  let main_v7 : IVec S_ 1 := (fun x v => Host.reduce IntOp.andi x v reducesTo_S128x1024x1024_S_d0_1_2 h_S_) main_v6 main_c_1
  let main_v8 : IVec S_ 1 := andi main_v3 main_v7
  main_v8
-- ==== Kernel.lean ====
abbrev S65536x16 : Shape := ⟨2, ![65536, 16]⟩
abbrev S128x1024x1024 : Shape := ⟨3, ![128, 1024, 1024]⟩
abbrev S65536 : Shape := ⟨1, ![65536]⟩
abbrev S_ : Shape := ⟨0, ![]⟩
abbrev S128 : Shape := ⟨1, ![128]⟩
abbrev S65536x1 : Shape := ⟨2, ![65536, 1]⟩
abbrev S128x1024x16 : Shape := ⟨3, ![128, 1024, 16]⟩
abbrev S65536x2 : Shape := ⟨2, ![65536, 2]⟩
abbrev S1x1024x1024 : Shape := ⟨3, ![1, 1024, 1024]⟩
abbrev S1x1024x16 : Shape := ⟨3, ![1, 1024, 16]⟩
abbrev S1024x1024 : Shape := ⟨2, ![1024, 1024]⟩
abbrev S1024x16 : Shape := ⟨2, ![1024, 16]⟩

abbrev nBuf : Space → Nat
  | .hbm => 63
  | .vmem => 6
  | .smem => 0
  | _ => 0

abbrev bufTy : (tb : Table) → Fin (tcTables nBuf tb) → BufTy
  | .hbm, ⟨0, _⟩ => ⟨S65536x16, .f32⟩
  | .hbm, ⟨1, _⟩ => ⟨S128x1024x1024, .f32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S_, .i32⟩
  | .hbm, ⟨6, _⟩ => ⟨S128, .i32⟩
  | .hbm, ⟨7, _⟩ => ⟨S65536x1, .i32⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S65536x1, .i32⟩
  | .hbm, ⟨22, _⟩ => ⟨S65536, .i32⟩
  | .hbm, ⟨23, _⟩ => ⟨S65536, .i32⟩
  | .hbm, ⟨24, _⟩ => ⟨S_, .f32⟩
  | .hbm, ⟨25, _⟩ => ⟨S128x1024x16, .f32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x1, .i32⟩
  | .hbm, ⟨42, _⟩ => ⟨S65536x2, .i32⟩
  | .hbm, ⟨43, _⟩ => ⟨S128x1024x16, .f32⟩
  | .hbm, ⟨44, _⟩ => ⟨S128x1024x16, .f32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S65536x1, .i32⟩
  | .hbm, ⟨61, _⟩ => ⟨S65536x2, .i32⟩
  | .hbm, ⟨62, _⟩ => ⟨S65536x16, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x16, .f32⟩
  | .local _ .vmem, ⟨3, _⟩ => ⟨S1x1024x16, .f32⟩
  | .local _ .vmem, ⟨4, _⟩ => ⟨S1x1024x16, .f32⟩
  | .local _ .vmem, ⟨5, _⟩ => ⟨S1x1024x16, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_c : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S65536 : S_.BroadcastsInDim S65536 (![] : Fin 0 → Fin S65536.rank)
  bcast_S_S128 : S_.BroadcastsInDim S128 (![] : Fin 0 → Fin S128.rank)
  bcast_S65536_S65536x1_0 : S65536.BroadcastsInDim S65536x1 (![0] : Fin 1 → Fin S65536x1.rank)
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S_S128x1024x16 : S_.BroadcastsInDim S128x1024x16 (![] : Fin 0 → Fin S128x1024x16.rank)
  concatenates_S65536x1_S65536x1_S65536x2_d1 : Shape.Concatenates [S65536x1, S65536x1] S65536x2 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1x1024x16 : S1024x16.ShapeCasts S1x1024x16
  scatter_S128_S65536x1_S65536_n_0_0_1_wf : ScatterDims.WF S128 S65536x1 S65536 [] [0] [0] 1
  gather_S128_S65536x1_S65536_n_0_n_n_0_1_1_wf : GatherDims.WF S128 S65536x1 S65536 [] [0] [] [0] [] 1 ![1]
  scatter_S128x1024x16_S65536x2_S65536x16_1_01_01_1_wf : ScatterDims.WF S128x1024x16 S65536x2 S65536x16 [1] [0, 1] [0, 1] 1
  dot_S1024x1024_S1024x16_S1024x16_1_0_0_1_n_n_wf : DotDims.WF S1024x1024 S1024x16 S1024x16 [1] [0] [0] [1] [] []
  gather_S128x1024x16_S65536x2_S65536x16_1_01_n_n_01_1_1116_wf : GatherDims.WF S128x1024x16 S65536x2 S65536x16 [1] [0, 1] [] [0, 1] [] 1 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S128x1024x1024.size a
  hwx0_0 : ∀ i : grid0.Coords, EltTy.bits .f32 = 32 ∨ (Rect.block (s := S128x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x16.size a ≤ S128x1024x16.size a
  hwx0_1 : ∀ i : grid0.Coords, EltTy.bits .f32 = 32 ∨ (Rect.block (s := S128x1024x16) S1x1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x16.size a ≤ S128x1024x16.size a
  hwx0_2 : ∀ i : grid0.Coords, EltTy.bits .f32 = 32 ∨ (Rect.block (s := S128x1024x16) S1x1024x16.size (cc0_transform_2 i) (hinb0_2 i)).WholeWords (EltTy.packing .f32)

variable [Facts₀]

def scatter_S128_S65536x1_S65536_n_0_0_1 : ScatterDims S128 S65536x1 S65536 where
  updateWindowDims := []
  insertedWindowDims := [0]
  scatterDimsToOperandDims := [0]
  indexVectorDim := 1
  wf := scatter_S128_S65536x1_S65536_n_0_0_1_wf
def gather_S128_S65536x1_S65536_n_0_n_n_0_1_1 : GatherDims S128 S65536x1 S65536 where
  offsetDims := []
  collapsedSliceDims := [0]
  operandBatchingDims := []
  startIndicesBatchingDims := []
  startIndexMap := [0]
  indexVectorDim := 1
  sliceSizes := ![1]
  wf := gather_S128_S65536x1_S65536_n_0_n_n_0_1_1_wf
def scatter_S128x1024x16_S65536x2_S65536x16_1_01_01_1 : ScatterDims S128x1024x16 S65536x2 S65536x16 where
  updateWindowDims := [1]
  insertedWindowDims := [0, 1]
  scatterDimsToOperandDims := [0, 1]
  indexVectorDim := 1
  wf := scatter_S128x1024x16_S65536x2_S65536x16_1_01_01_1_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def gather_S128x1024x16_S65536x2_S65536x16_1_01_n_n_01_1_1116 : GatherDims S128x1024x16 S65536x2 S65536x16 where
  offsetDims := [1]
  collapsedSliceDims := [0, 1]
  operandBatchingDims := []
  startIndicesBatchingDims := []
  startIndexMap := [0, 1]
  indexVectorDim := 1
  sliceSizes := ![1, 1, 16]
  wf := gather_S128x1024x16_S65536x2_S65536x16_1_01_n_n_01_1_1116_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x16 : Shape := ⟨2, ![65536, 16]⟩
abbrev S128x1024x1024 : Shape := ⟨3, ![128, 1024, 1024]⟩
abbrev S65536 : Shape := ⟨1, ![65536]⟩
abbrev S_ : Shape := ⟨0, ![]⟩
abbrev S128 : Shape := ⟨1, ![128]⟩
abbrev S65536x1 : Shape := ⟨2, ![65536, 1]⟩
abbrev S128x1024x16 : Shape := ⟨3, ![128, 1024, 16]⟩
abbrev S65536x2 : Shape := ⟨2, ![65536, 2]⟩

abbrev nBuf : Space → Nat
  | .hbm => 63
  | .vmem => 0
  | .smem => 0
  | _ => 0

abbrev bufTy : (tb : Table) → Fin (tcTables nBuf tb) → BufTy
  | .hbm, ⟨0, _⟩ => ⟨S65536x16, .f32⟩
  | .hbm, ⟨1, _⟩ => ⟨S128x1024x1024, .f32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S_, .i32⟩
  | .hbm, ⟨6, _⟩ => ⟨S128, .i32⟩
  | .hbm, ⟨7, _⟩ => ⟨S65536x1, .i32⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S65536x1, .i32⟩
  | .hbm, ⟨22, _⟩ => ⟨S65536, .i32⟩
  | .hbm, ⟨23, _⟩ => ⟨S65536, .i32⟩
  | .hbm, ⟨24, _⟩ => ⟨S_, .f32⟩
  | .hbm, ⟨25, _⟩ => ⟨S128x1024x16, .f32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x1, .i32⟩
  | .hbm, ⟨42, _⟩ => ⟨S65536x2, .i32⟩
  | .hbm, ⟨43, _⟩ => ⟨S128x1024x16, .f32⟩
  | .hbm, ⟨44, _⟩ => ⟨S128x1024x16, .f32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S65536x1, .i32⟩
  | .hbm, ⟨61, _⟩ => ⟨S65536x2, .i32⟩
  | .hbm, ⟨62, _⟩ => ⟨S65536x16, .f32⟩
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_c : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S128 : S_.BroadcastsInDim S128 (![] : Fin 0 → Fin S128.rank)
  bcast_S65536_S65536x1_0 : S65536.BroadcastsInDim S65536x1 (![0] : Fin 1 → Fin S65536x1.rank)
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S_S128x1024x16 : S_.BroadcastsInDim S128x1024x16 (![] : Fin 0 → Fin S128x1024x16.rank)
  concatenates_S65536x1_S65536x1_S65536x2_d1 : Shape.Concatenates [S65536x1, S65536x1] S65536x2 1
  scatter_S128_S65536x1_S65536_n_0_0_1_wf : ScatterDims.WF S128 S65536x1 S65536 [] [0] [0] 1
  gather_S128_S65536x1_S65536_n_0_n_n_0_1_1_wf : GatherDims.WF S128 S65536x1 S65536 [] [0] [] [0] [] 1 ![1]
  scatter_S128x1024x16_S65536x2_S65536x16_1_01_01_1_wf : ScatterDims.WF S128x1024x16 S65536x2 S65536x16 [1] [0, 1] [0, 1] 1
  dot_S128x1024x1024_S128x1024x16_S128x1024x16_2_1_1_2_0_0_wf : DotDims.WF S128x1024x1024 S128x1024x16 S128x1024x16 [2] [1] [1] [2] [0] [0]
  gather_S128x1024x16_S65536x2_S65536x16_1_01_n_n_01_1_1116_wf : GatherDims.WF S128x1024x16 S65536x2 S65536x16 [1] [0, 1] [] [0, 1] [] 1 ![1, 1, 16]

variable [Facts₀]

def scatter_S128_S65536x1_S65536_n_0_0_1 : ScatterDims S128 S65536x1 S65536 where
  updateWindowDims := []
  insertedWindowDims := [0]
  scatterDimsToOperandDims := [0]
  indexVectorDim := 1
  wf := scatter_S128_S65536x1_S65536_n_0_0_1_wf
def gather_S128_S65536x1_S65536_n_0_n_n_0_1_1 : GatherDims S128 S65536x1 S65536 where
  offsetDims := []
  collapsedSliceDims := [0]
  operandBatchingDims := []
  startIndicesBatchingDims := []
  startIndexMap := [0]
  indexVectorDim := 1
  sliceSizes := ![1]
  wf := gather_S128_S65536x1_S65536_n_0_n_n_0_1_1_wf
def scatter_S128x1024x16_S65536x2_S65536x16_1_01_01_1 : ScatterDims S128x1024x16 S65536x2 S65536x16 where
  updateWindowDims := [1]
  insertedWindowDims := [0, 1]
  scatterDimsToOperandDims := [0, 1]
  indexVectorDim := 1
  wf := scatter_S128x1024x16_S65536x2_S65536x16_1_01_01_1_wf
def dot_S128x1024x1024_S128x1024x16_S128x1024x16_2_1_1_2_0_0 : DotDims S128x1024x1024 S128x1024x16 S128x1024x16 where
  lhsContracting := [2]
  rhsContracting := [1]
  lhsNonContracting := [1]
  rhsNonContracting := [2]
  lhsBatch := [0]
  rhsBatch := [0]
  wf := dot_S128x1024x1024_S128x1024x16_S128x1024x16_2_1_1_2_0_0_wf
def gather_S128x1024x16_S65536x2_S65536x16_1_01_n_n_01_1_1116 : GatherDims S128x1024x16 S65536x2 S65536x16 where
  offsetDims := [1]
  collapsedSliceDims := [0, 1]
  operandBatchingDims := []
  startIndicesBatchingDims := []
  startIndexMap := [0, 1]
  indexVectorDim := 1
  sliceSizes := ![1, 1, 16]
  wf := gather_S128x1024x16_S65536x2_S65536x16_1_01_n_n_01_1_1116_wf

class Facts : Prop extends Facts₀ where

variable [Facts]
-- ==== Proof.HostGlue.lean ====
/-
  The host arithmetic both programs share, stated once over literal shapes.

  A batch of 65536 nodes, node n belonging to graph g(n) (an integer in [0, 128) when the input is as intended; any
  32-bit integer otherwise, and nothing below depends on which), is laid out as 128 padded graphs of 1024 rows:
  * counts(g)   — how many nodes name graph g (an integer scatter-add of ones);
  * starts(g)   — the exclusive running sum of the counts (a padded window sum minus the counts);
  * pos(n)      — n − starts(g(n)), the node's row inside its graph;
  * the address pair of node n is (g(n), pos(n)), each wrapped once by its extent when negative;
  * dense       — the zero array [128, 1024, 16] with row n of the features written at node n's address pair;
  * rowsBack y  — row (g(n), pos(n)) of an array y : [128, 1024, 16], for every node n.
  Nothing here is opened by the certificate: the two programs apply the same functions to the same arguments, and
  only what happens between `dense` and `rowsBack` differs.
-/
import Idealize.ShloMosaic.PureOps

noncomputable section

namespace Cert.Glue

open Idealize.ShloMosaic

abbrev Scalar0 : Shape := ⟨0, ![]⟩
abbrev Nodes : Shape := ⟨1, ![65536]⟩
abbrev NodesCol : Shape := ⟨2, ![65536, 1]⟩
abbrev NodePairs : Shape := ⟨2, ![65536, 2]⟩
abbrev Graphs : Shape := ⟨1, ![128]⟩
abbrev Feat : Shape := ⟨2, ![65536, 16]⟩
abbrev Padded : Shape := ⟨3, ![128, 1024, 16]⟩

/-- The shape relations the host operations below ask of their operands. -/
structure Facts : Prop where
  scalarToNodes : Scalar0.BroadcastsInDim Nodes (![] : Fin 0 → Fin Nodes.rank)
  scalarToGraphs : Scalar0.BroadcastsInDim Graphs (![] : Fin 0 → Fin Graphs.rank)
  nodesToCol : Nodes.BroadcastsInDim NodesCol (![0] : Fin 1 → Fin NodesCol.rank)
  scalarToScalar : Scalar0.BroadcastsInDim Scalar0 (![] : Fin 0 → Fin Scalar0.rank)
  runningWindow : Graphs.ReduceWindows (![128] : Fin 1 → Nat) ![1] ![127] ![0] Graphs
  scalarPos : 0 < Scalar0.numel
  scalarToPadded : Scalar0.BroadcastsInDim Padded (![] : Fin 0 → Fin Padded.rank)
  pairCols : Shape.Concatenates [NodesCol, NodesCol] NodePairs 1
  countWF : ScatterDims.WF Graphs NodesCol Nodes [] [0] [0] 1
  startWF : GatherDims.WF Graphs NodesCol Nodes [] [0] [] [0] [] 1 ![1]
  placeWF : ScatterDims.WF Padded NodePairs Feat [1] [0, 1] [0, 1] 1
  rowWF : GatherDims.WF Padded NodePairs Feat [1] [0, 1] [] [0, 1] [] 1 ![1, 1, 16]

variable (hf : Facts)

/-- Scatter of one value per node into the per-graph array, at the node's graph. -/
def countDims : ScatterDims Graphs NodesCol Nodes where
  updateWindowDims := []
  insertedWindowDims := [0]
  scatterDimsToOperandDims := [0]
  indexVectorDim := 1
  wf := hf.countWF
/-- Gather of one per-graph value per node, at the node's graph. -/
def startDims : GatherDims Graphs NodesCol Nodes where
  offsetDims := []
  collapsedSliceDims := [0]
  operandBatchingDims := []
  startIndicesBatchingDims := []
  startIndexMap := [0]
  indexVectorDim := 1
  sliceSizes := ![1]
  wf := hf.startWF
/-- Scatter of a feature row per node into the padded array, at the node's address pair. -/
def placeDims : ScatterDims Padded NodePairs Feat where
  updateWindowDims := [1]
  insertedWindowDims := [0, 1]
  scatterDimsToOperandDims := [0, 1]
  indexVectorDim := 1
  wf := hf.placeWF
/-- Gather of a row of the padded array per node, at the node's address pair. -/
def rowDims : GatherDims Padded NodePairs Feat where
  offsetDims := [1]
  collapsedSliceDims := [0, 1]
  operandBatchingDims := []
  startIndicesBatchingDims := []
  startIndexMap := [0, 1]
  indexVectorDim := 1
  sliceSizes := ![1, 1, 16]
  wf := hf.rowWF

/-- An integer splat over the nodes. -/
def splatNodes (n : BitVec 32) : IVec Nodes 32 := broadcastInDim Nodes ![] hf.scalarToNodes (constantI Scalar0 32 n)

/-- A per-node integer, wrapped once by `n` where negative (numpy's negative indexing). -/
def wrap (n : BitVec 32) (a : IVec Nodes 32) : IVec Nodes 32 :=
  select (cmpi .slt a (splatNodes hf 0#32)) (addi a (splatNodes hf n)) a

/-- A per-node integer as a one-column matrix. -/
def asCol (a : IVec Nodes 32) : IVec NodesCol 32 := broadcastInDim NodesCol ![0] hf.nodesToCol a

/-- How many nodes name each graph. -/
def counts (g : IVec Nodes 32) : IVec Graphs 32 :=
  Host.scatter (countDims hf) IntOp.addi (broadcastInDim Graphs ![] hf.scalarToGraphs (constantI Scalar0 32 0#32)) (asCol hf g)
    (splatNodes hf 1#32)

/-- The index of each graph's first node: the running sum of the counts, less the graph's own. -/
def starts (g : IVec Nodes 32) : IVec Graphs 32 :=
  subi (Host.reduceWindow IntOp.addi ![128] ![1] ![127] ![0] (counts hf g)
      (broadcastInDim Scalar0 ![] hf.scalarToScalar (constantI Scalar0 32 0#32)) hf.runningWindow hf.scalarPos)
    (counts hf g)

/-- Each node's row inside its graph. -/
def pos (g : IVec Nodes 32) : IVec Nodes 32 :=
  subi (iotaInDim Nodes 32 0) (Host.gather (startDims hf) (starts hf g) (asCol hf (wrap hf 128#32 g)))

/-- Each node's address pair (graph, row), both wrapped. -/
def addr (g p : IVec Nodes 32) : IVec NodePairs 32 :=
  concatenate NodePairs 1 [⟨NodesCol, asCol hf (wrap hf 128#32 g)⟩, ⟨NodesCol, asCol hf (wrap hf 1024#32 p)⟩] hf.pairCols

variable {F : FTy → Type} [FloatOps F]

/-- The features laid out graph by graph, zero where no node lands. -/
def dense (x : FVec F Feat .f32) (g p : IVec Nodes 32) : FVec F Padded .f32 :=
  Host.scatter (placeDims hf) (fun _ b => b) (broadcastInDim Padded ![] hf.scalarToPadded (constant Scalar0 .f32 0x00000000#32))
    (addr hf g p) x

/-- The rows of a padded array read back in node order. -/
def rowsBack (y : FVec F Padded .f32) (g p : IVec Nodes 32) : FVec F Feat .f32 :=
  Host.gather (rowDims hf) y (addr hf g p)

end Cert.Glue

end
-- ==== Proof.LibAfter.lean ====
/-
  The fold of a list of host operations over the buffers' contents, one stretch after the other: running the operations
  of `l₁ ++ l₂` from contents `V` is running `l₂` from what `l₁` leaves.
-/
import Idealize.ShloMosaic.Lib.StableHlo.Run

namespace Cert.LibAfter

open Idealize.ShloMosaic Idealize.ShloMosaic.StableHlo

variable {τ : Topo} {sig : RefSig} {Val : EltTy → Type}

/-- The contents after two stretches of operations are the second stretch's, from the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter
-- ==== Proof.RefRun.lean ====
/-
  The reference program's run, read back: its sixty host operations as a list (the running sum's three where it is
  called), every weakly fair execution ending with each buffer at the operations' fold over the launch contents, and that
  fold at the result buffer as ONE term of the arguments, read one stretch of lines at a time: the rows read back
  (`Glue.rowsBack`) of the batched product of the matrices with the features laid out graph by graph (`Glue.dense`),
  at each node's address.
-/
import proofs.«107157_j50173807952912_1_alg».proof.Proof.Gen.ReferenceIdeal
import proofs.«107157_j50173807952912_1_alg».proof.Proof.HostGlue
import proofs.«107157_j50173807952912_1_alg».proof.Proof.LibAfter
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The shape relations of the shared host arithmetic, from the program's stated facts. -/
theorem glueFacts : Cert.Glue.Facts :=
  ⟨bcast_S_S65536, bcast_S_S128, bcast_S65536_S65536x1_0, bcast_S_S_, reduceWindows_S128_S128_w128s1p127_0, h_S_, bcast_S_S128x1024x16,
    concatenates_S65536x1_S65536x1_S65536x2_d1, scatter_S128_S65536x1_S65536_n_0_0_1_wf, gather_S128_S65536x1_S65536_n_0_n_n_0_1_1_wf,
    scatter_S128x1024x16_S65536x2_S65536x16_1_01_01_1_wf, gather_S128x1024x16_S65536x2_S65536x16_1_01_n_n_01_1_1116_wf⟩

/-- The lines that compute each node's address: the counts, their running sum (the called function's three lines
    where it is called), the rows, the two wrapped columns. -/
abbrev prepOps : List (HloOp τ sig (Elt F)) :=
  [ nullary main_c (constantI S_ 32 1#32),
    unary main_c main_v0 (broadcastInDim S65536 ![] bcast_S_S65536 : (⟨S_, .i32⟩ : BufTy).Contents (Elt F) → (⟨S65536, .i32⟩ : BufTy).Contents (Elt F)),
    nullary main_c_0 (constantI S_ 32 0#32),
    unary main_c_0 main_v1 (broadcastInDim S128 ![] bcast_S_S128 : (⟨S_, .i32⟩ : BufTy).Contents (Elt F) → (⟨S128, .i32⟩ : BufTy).Contents (Elt F)),
    unary main_arg2 main_v2 (broadcastInDim S65536x1 ![0] bcast_S65536_S65536x1_0 : (⟨S65536, .i32⟩ : BufTy).Contents (Elt F) → (⟨S65536x1, .i32⟩ : BufTy).Contents (Elt F)),
    ternary main_v1 main_v2 main_v0 main_v3 ((fun x i u => Host.scatter scatter_S128_S65536x1_S65536_n_0_0_1 IntOp.addi x i u) : (⟨S128, .i32⟩ : BufTy).Contents (Elt F) → (⟨S65536x1, .i32⟩ : BufTy).Contents (Elt F) → (⟨S65536, .i32⟩ : BufTy).Contents (Elt F) → (⟨S128, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v3 : TRef sig ⟨S128, .i32⟩) (.of main_call0_call0_v0 : TRef sig ⟨S_, .i32⟩) (.of main_v4 : TRef sig ⟨S128, .i32⟩) (fun x v => Host.reduceWindow IntOp.addi ![128] ![1] ![127] ![0] x v reduceWindows_S128_S128_w128s1p127_0 h_S_),
    binary main_v4 main_v3 main_v5 (subi : (⟨S128, .i32⟩ : BufTy).Contents (Elt F) → (⟨S128, .i32⟩ : BufTy).Contents (Elt F) → (⟨S128, .i32⟩ : BufTy).Contents (Elt F)),
    nullary main_v6 (iotaInDim S65536 32 0),
    nullary main_c_1 (constantI S_ 32 0#32),
    unary main_c_1 main_v7 (broadcastInDim S65536 ![] bcast_S_S65536 : (⟨S_, .i32⟩ : BufTy).Contents (Elt F) → (⟨S65536, .i32⟩ : BufTy).Contents (Elt F)),
    binary main_arg2 main_v7 main_v8 (cmpi .slt : (⟨S65536, .i32⟩ : BufTy).Contents (Elt F) → (⟨S65536, .i32⟩ : BufTy).Contents (Elt F) → (⟨S65536, .i1⟩ : BufTy).Contents (Elt F)),
    nullary main_c_2 (constantI S_ 32 128#32),
    unary main_c_2 main_v9 (broadcastInDim S65536 ![] bcast_S_S65536 : (⟨S_, .i32⟩ : BufTy).Contents (Elt F) → (⟨S65536, .i32⟩ : BufTy).Contents (Elt F)),
    binary main_arg2 main_v9 main_v10 (addi : (⟨S65536, .i32⟩ : BufTy).Contents (Elt F) → (⟨S65536, .i32⟩ : BufTy).Contents (Elt F) → (⟨S65536, .i32⟩ : BufTy).Contents (Elt F)),
    ternary main_v8 main_v10 main_arg2 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    binary main_v5 main_v12 main_v13 ((fun x i => Host.gather gather_S128_S65536x1_S65536_n_0_n_n_0_1_1 x i) : (⟨S128, .i32⟩ : BufTy).Contents (Elt F) → (⟨S65536x1, .i32⟩ : BufTy).Contents (Elt F) → (⟨S65536, .i32⟩ : BufTy).Contents (Elt F)),
    binary main_v6 main_v13 main_v14 (subi : (⟨S65536, .i32⟩ : BufTy).Contents (Elt F) → (⟨S65536, .i32⟩ : BufTy).Contents (Elt F) → (⟨S65536, .i32⟩ : BufTy).Contents (Elt F)),
    nullary main_cst (constant S_ .f32 0x00000000#32),
    unary main_cst main_v15 (broadcastInDim S128x1024x16 ![] bcast_S_S128x1024x16 : (⟨S_, .f32⟩ : BufTy).Contents (Elt F) → (⟨S128x1024x16, .f32⟩ : BufTy).Contents (Elt F)),
    nullary main_c_3 (constantI S_ 32 0#32),
    unary main_c_3 main_v16 (broadcastInDim S65536 ![] bcast_S_S65536 : (⟨S_, .i32⟩ : BufTy).Contents (Elt F) → (⟨S65536, .i32⟩ : BufTy).Contents (Elt F)),
    binary main_arg2 main_v16 main_v17 (cmpi .slt : (⟨S65536, .i32⟩ : BufTy).Contents (Elt F) → (⟨S65536, .i32⟩ : BufTy).Contents (Elt F) → (⟨S65536, .i1⟩ : BufTy).Contents (Elt F)),
    nullary main_c_4 (constantI S_ 32 128#32),
    unary main_c_4 main_v18 (broadcastInDim S65536 ![] bcast_S_S65536 : (⟨S_, .i32⟩ : BufTy).Contents (Elt F) → (⟨S65536, .i32⟩ : BufTy).Contents (Elt F)),
    binary main_arg2 main_v18 main_v19 (addi : (⟨S65536, .i32⟩ : BufTy).Contents (Elt F) → (⟨S65536, .i32⟩ : BufTy).Contents (Elt F) → (⟨S65536, .i32⟩ : BufTy).Contents (Elt F)),
    ternary main_v17 main_v19 main_arg2 main_v20 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_5 (constantI S_ 32 0#32),
    unary main_c_5 main_v21 (broadcastInDim S65536 ![] bcast_S_S65536 : (⟨S_, .i32⟩ : BufTy).Contents (Elt F) → (⟨S65536, .i32⟩ : BufTy).Contents (Elt F)),
    binary main_v14 main_v21 main_v22 (cmpi .slt : (⟨S65536, .i32⟩ : BufTy).Contents (Elt F) → (⟨S65536, .i32⟩ : BufTy).Contents (Elt F) → (⟨S65536, .i1⟩ : BufTy).Contents (Elt F)),
    nullary main_c_6 (constantI S_ 32 1024#32),
    unary main_c_6 main_v23 (broadcastInDim S65536 ![] bcast_S_S65536 : (⟨S_, .i32⟩ : BufTy).Contents (Elt F) → (⟨S65536, .i32⟩ : BufTy).Contents (Elt F)),
    binary main_v14 main_v23 main_v24 (addi : (⟨S65536, .i32⟩ : BufTy).Contents (Elt F) → (⟨S65536, .i32⟩ : BufTy).Contents (Elt F) → (⟨S65536, .i32⟩ : BufTy).Contents (Elt F)),
    ternary main_v22 main_v24 main_v14 main_v25 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v20 main_v26 (broadcastInDim S65536x1 ![0] bcast_S65536_S65536x1_0 : (⟨S65536, .i32⟩ : BufTy).Contents (Elt F) → (⟨S65536x1, .i32⟩ : BufTy).Contents (Elt F)),
    unary main_v25 main_v27 (broadcastInDim S65536x1 ![0] bcast_S65536_S65536x1_0 : (⟨S65536, .i32⟩ : BufTy).Contents (Elt F) → (⟨S65536x1, .i32⟩ : BufTy).Contents (Elt F)) ]

/-- The two lines that lay the features out: the address pairs, and the scatter of the feature rows at them. -/
abbrev layOps : List (HloOp τ sig (Elt F)) :=
  [ binary main_v26 main_v27 main_v28 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    ternary main_v15 main_v28 main_arg0 main_v29 ((fun x i u => Host.scatter scatter_S128x1024x16_S65536x2_S65536x16_1_01_01_1 (fun _ b => b) x i u) : (⟨S128x1024x16, .f32⟩ : BufTy).Contents (Elt F) → (⟨S65536x2, .i32⟩ : BufTy).Contents (Elt F) → (⟨S65536x16, .f32⟩ : BufTy).Contents (Elt F) → (⟨S128x1024x16, .f32⟩ : BufTy).Contents (Elt F)) ]

/-- The lines after the product: the address pairs again, and the gather of the product's rows at them. -/
abbrev tailOps : List (HloOp τ sig (Elt F)) :=
  [ nullary main_c_7 (constantI S_ 32 0#32),
    unary main_c_7 main_v31 (broadcastInDim S65536 ![] bcast_S_S65536 : (⟨S_, .i32⟩ : BufTy).Contents (Elt F) → (⟨S65536, .i32⟩ : BufTy).Contents (Elt F)),
    binary main_arg2 main_v31 main_v32 (cmpi .slt : (⟨S65536, .i32⟩ : BufTy).Contents (Elt F) → (⟨S65536, .i32⟩ : BufTy).Contents (Elt F) → (⟨S65536, .i1⟩ : BufTy).Contents (Elt F)),
    nullary main_c_8 (constantI S_ 32 128#32),
    unary main_c_8 main_v33 (broadcastInDim S65536 ![] bcast_S_S65536 : (⟨S_, .i32⟩ : BufTy).Contents (Elt F) → (⟨S65536, .i32⟩ : BufTy).Contents (Elt F)),
    binary main_arg2 main_v33 main_v34 (addi : (⟨S65536, .i32⟩ : BufTy).Contents (Elt F) → (⟨S65536, .i32⟩ : BufTy).Contents (Elt F) → (⟨S65536, .i32⟩ : BufTy).Contents (Elt F)),
    ternary main_v32 main_v34 main_arg2 main_v35 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_9 (constantI S_ 32 0#32),
    unary main_c_9 main_v36 (broadcastInDim S65536 ![] bcast_S_S65536 : (⟨S_, .i32⟩ : BufTy).Contents (Elt F) → (⟨S65536, .i32⟩ : BufTy).Contents (Elt F)),
    binary main_v14 main_v36 main_v37 (cmpi .slt : (⟨S65536, .i32⟩ : BufTy).Contents (Elt F) → (⟨S65536, .i32⟩ : BufTy).Contents (Elt F) → (⟨S65536, .i1⟩ : BufTy).Contents (Elt F)),
    nullary main_c_10 (constantI S_ 32 1024#32),
    unary main_c_10 main_v38 (broadcastInDim S65536 ![] bcast_S_S65536 : (⟨S_, .i32⟩ : BufTy).Contents (Elt F) → (⟨S65536, .i32⟩ : BufTy).Contents (Elt F)),
    binary main_v14 main_v38 main_v39 (addi : (⟨S65536, .i32⟩ : BufTy).Contents (Elt F) → (⟨S65536, .i32⟩ : BufTy).Contents (Elt F) → (⟨S65536, .i32⟩ : BufTy).Contents (Elt F)),
    ternary main_v37 main_v39 main_v14 main_v40 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v35 main_v41 (broadcastInDim S65536x1 ![0] bcast_S65536_S65536x1_0 : (⟨S65536, .i32⟩ : BufTy).Contents (Elt F) → (⟨S65536x1, .i32⟩ : BufTy).Contents (Elt F)),
    unary main_v40 main_v42 (broadcastInDim S65536x1 ![0] bcast_S65536_S65536x1_0 : (⟨S65536, .i32⟩ : BufTy).Contents (Elt F) → (⟨S65536x1, .i32⟩ : BufTy).Contents (Elt F)),
    binary main_v41 main_v42 main_v43 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    binary main_v30 main_v43 main_v44 ((fun x i => Host.gather gather_S128x1024x16_S65536x2_S65536x16_1_01_n_n_01_1_1116 x i) : (⟨S128x1024x16, .f32⟩ : BufTy).Contents (Elt F) → (⟨S65536x2, .i32⟩ : BufTy).Contents (Elt F) → (⟨S65536x16, .f32⟩ : BufTy).Contents (Elt F)) ]

section Prep
attribute [local irreducible] Host.scatter Host.gather Host.reduceWindow concatenate

set_option maxHeartbeats 1000000 in
/-- After the address lines, the rows buffer holds each node's row inside its graph. -/
theorem prep_pos (W : Valuation τ sig (Elt F)) :
    after prepOps W (main_v14 : DevRef τ sig) = Cert.Glue.pos glueFacts (W (main_arg2 : DevRef τ sig)) := by
  after_results_simp
  simp only [TRef.toBuf, TRef.ofBuf, cast_eq]
  unfold Cert.Glue.pos Cert.Glue.starts Cert.Glue.counts Cert.Glue.wrap Cert.Glue.asCol Cert.Glue.splatNodes
  rfl

set_option maxHeartbeats 1000000 in
/-- After the address lines, the first address column: the graph ids, wrapped. -/
theorem prep_graphCol (W : Valuation τ sig (Elt F)) :
    after prepOps W (main_v26 : DevRef τ sig)
      = Cert.Glue.asCol glueFacts (Cert.Glue.wrap glueFacts 128#32 (W (main_arg2 : DevRef τ sig))) := by
  after_results_simp
  unfold Cert.Glue.wrap Cert.Glue.asCol Cert.Glue.splatNodes
  rfl

set_option maxHeartbeats 1000000 in
/-- After the address lines, the second address column: the rows, wrapped. -/
theorem prep_rowCol (W : Valuation τ sig (Elt F)) :
    after prepOps W (main_v27 : DevRef τ sig)
      = Cert.Glue.asCol glueFacts (Cert.Glue.wrap glueFacts 1024#32 (Cert.Glue.pos glueFacts (W (main_arg2 : DevRef τ sig)))) := by
  after_results_simp
  simp only [TRef.toBuf, TRef.ofBuf, cast_eq]
  unfold Cert.Glue.pos Cert.Glue.starts Cert.Glue.counts Cert.Glue.wrap Cert.Glue.asCol Cert.Glue.splatNodes
  rfl

/-- After the address lines, the array the features are scattered into is all zeros. -/
theorem prep_zeros (W : Valuation τ sig (Elt F)) :
    after prepOps W (main_v15 : DevRef τ sig)
      = broadcastInDim Cert.Glue.Padded ![] glueFacts.scalarToPadded (constant Cert.Glue.Scalar0 .f32 0x00000000#32) := by
  after_results_simp

/-- The address lines write none of the three arguments. -/
theorem prep_arg0 (W : Valuation τ sig (Elt F)) : after prepOps W (main_arg0 : DevRef τ sig) = W (main_arg0 : DevRef τ sig) := by
  after_results_simp
theorem prep_arg1 (W : Valuation τ sig (Elt F)) : after prepOps W (main_arg1 : DevRef τ sig) = W (main_arg1 : DevRef τ sig) := by
  after_results_simp
theorem prep_arg2 (W : Valuation τ sig (Elt F)) : after prepOps W (main_arg2 : DevRef τ sig) = W (main_arg2 : DevRef τ sig) := by
  after_results_simp

/-- The layout lines, from contents whose two address columns, zero array and features are named: the features laid
    out graph by graph. -/
theorem lay_dense (W : Valuation τ sig (Elt F)) (x : FVec F Cert.Glue.Feat .f32) (g p : IVec Cert.Glue.Nodes 32)
    (hz : W (main_v15 : DevRef τ sig)
      = broadcastInDim Cert.Glue.Padded ![] glueFacts.scalarToPadded (constant Cert.Glue.Scalar0 .f32 0x00000000#32))
    (hg : W (main_v26 : DevRef τ sig) = Cert.Glue.asCol glueFacts (Cert.Glue.wrap glueFacts 128#32 g))
    (hp : W (main_v27 : DevRef τ sig) = Cert.Glue.asCol glueFacts (Cert.Glue.wrap glueFacts 1024#32 p))
    (hx : W (main_arg0 : DevRef τ sig) = x) :
    after layOps W (main_v29 : DevRef τ sig) = Cert.Glue.dense glueFacts x g p := by
  after_results_simp
  rw [hz, hg, hp, hx]
  rfl

/-- The layout lines keep the rows buffer, the matrices and the graph ids. -/
theorem lay_pos (W : Valuation τ sig (Elt F)) : after layOps W (main_v14 : DevRef τ sig) = W (main_v14 : DevRef τ sig) := by
  after_results_simp
theorem lay_arg1 (W : Valuation τ sig (Elt F)) : after layOps W (main_arg1 : DevRef τ sig) = W (main_arg1 : DevRef τ sig) := by
  after_results_simp
theorem lay_arg2 (W : Valuation τ sig (Elt F)) : after layOps W (main_arg2 : DevRef τ sig) = W (main_arg2 : DevRef τ sig) := by
  after_results_simp

set_option maxHeartbeats 1000000 in
/-- The lines after the product leave in the result buffer the rows of the product buffer read back in node order. -/
theorem tail_rows (W : Valuation τ sig (Elt F)) :
    after tailOps W (main_v44 : DevRef τ sig)
      = Cert.Glue.rowsBack glueFacts (W (main_v30 : DevRef τ sig)) (W (main_arg2 : DevRef τ sig)) (W (main_v14 : DevRef τ sig)) := by
  after_results_simp
  rfl

end Prep

/-- From any contents, after the address and layout lines: the rows buffer, the laid-out features, and the matrices and
    graph ids untouched. -/
theorem head_pos (W : Valuation τ sig (Elt F)) :
    after (prepOps ++ layOps) W (main_v14 : DevRef τ sig) = Cert.Glue.pos glueFacts (W (main_arg2 : DevRef τ sig)) := by
  rw [Cert.LibAfter.after_append, lay_pos, prep_pos]
theorem head_dense (W : Valuation τ sig (Elt F)) :
    after (prepOps ++ layOps) W (main_v29 : DevRef τ sig)
      = Cert.Glue.dense glueFacts (W (main_arg0 : DevRef τ sig)) (W (main_arg2 : DevRef τ sig))
          (Cert.Glue.pos glueFacts (W (main_arg2 : DevRef τ sig))) := by
  rw [Cert.LibAfter.after_append]
  exact lay_dense _ _ _ _ (prep_zeros W) (prep_graphCol W) (prep_rowCol W) (prep_arg0 W)
theorem head_arg1 (W : Valuation τ sig (Elt F)) :
    after (prepOps ++ layOps) W (main_arg1 : DevRef τ sig) = W (main_arg1 : DevRef τ sig) := by
  rw [Cert.LibAfter.after_append, lay_arg1, prep_arg1]
theorem head_arg2 (W : Valuation τ sig (Elt F)) :
    after (prepOps ++ layOps) W (main_arg2 : DevRef τ sig) = W (main_arg2 : DevRef τ sig) := by
  rw [Cert.LibAfter.after_append, lay_arg2, prep_arg2]

/-- The batched product line. -/
abbrev dotOp : HloOp τ sig (Elt F) :=
  binary main_arg1 main_v29 main_v30 ((fun l r => Host.dotGeneral dot_S128x1024x1024_S128x1024x16_S128x1024x16_2_1_1_2_0_0 none l r) : (⟨S128x1024x1024, .f32⟩ : BufTy).Contents (Elt F) → (⟨S128x1024x16, .f32⟩ : BufTy).Contents (Elt F) → (⟨S128x1024x16, .f32⟩ : BufTy).Contents (Elt F))

/-- @main's operations in order, the running sum's three listed where it is called. -/
abbrev ops : List (HloOp τ sig (Elt F)) :=
  [ nullary main_c (constantI S_ 32 1#32),
    unary main_c main_v0 (broadcastInDim S65536 ![] bcast_S_S65536 : (⟨S_, .i32⟩ : BufTy).Contents (Elt F) → (⟨S65536, .i32⟩ : BufTy).Contents (Elt F)),
    nullary main_c_0 (constantI S_ 32 0#32),
    unary main_c_0 main_v1 (broadcastInDim S128 ![] bcast_S_S128 : (⟨S_, .i32⟩ : BufTy).Contents (Elt F) → (⟨S128, .i32⟩ : BufTy).Contents (Elt F)),
    unary main_arg2 main_v2 (broadcastInDim S65536x1 ![0] bcast_S65536_S65536x1_0 : (⟨S65536, .i32⟩ : BufTy).Contents (Elt F) → (⟨S65536x1, .i32⟩ : BufTy).Contents (Elt F)),
    ternary main_v1 main_v2 main_v0 main_v3 ((fun x i u => Host.scatter scatter_S128_S65536x1_S65536_n_0_0_1 IntOp.addi x i u) : (⟨S128, .i32⟩ : BufTy).Contents (Elt F) → (⟨S65536x1, .i32⟩ : BufTy).Contents (Elt F) → (⟨S65536, .i32⟩ : BufTy).Contents (Elt F) → (⟨S128, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v3 : TRef sig ⟨S128, .i32⟩) (.of main_call0_call0_v0 : TRef sig ⟨S_, .i32⟩) (.of main_v4 : TRef sig ⟨S128, .i32⟩) (fun x v => Host.reduceWindow IntOp.addi ![128] ![1] ![127] ![0] x v reduceWindows_S128_S128_w128s1p127_0 h_S_),
    binary main_v4 main_v3 main_v5 (subi : (⟨S128, .i32⟩ : BufTy).Contents (Elt F) → (⟨S128, .i32⟩ : BufTy).Contents (Elt F) → (⟨S128, .i32⟩ : BufTy).Contents (Elt F)),
    nullary main_v6 (iotaInDim S65536 32 0),
    nullary main_c_1 (constantI S_ 32 0#32),
    unary main_c_1 main_v7 (broadcastInDim S65536 ![] bcast_S_S65536 : (⟨S_, .i32⟩ : BufTy).Contents (Elt F) → (⟨S65536, .i32⟩ : BufTy).Contents (Elt F)),
    binary main_arg2 main_v7 main_v8 (cmpi .slt : (⟨S65536, .i32⟩ : BufTy).Contents (Elt F) → (⟨S65536, .i32⟩ : BufTy).Contents (Elt F) → (⟨S65536, .i1⟩ : BufTy).Contents (Elt F)),
    nullary main_c_2 (constantI S_ 32 128#32),
    unary main_c_2 main_v9 (broadcastInDim S65536 ![] bcast_S_S65536 : (⟨S_, .i32⟩ : BufTy).Contents (Elt F) → (⟨S65536, .i32⟩ : BufTy).Contents (Elt F)),
    binary main_arg2 main_v9 main_v10 (addi : (⟨S65536, .i32⟩ : BufTy).Contents (Elt F) → (⟨S65536, .i32⟩ : BufTy).Contents (Elt F) → (⟨S65536, .i32⟩ : BufTy).Contents (Elt F)),
    ternary main_v8 main_v10 main_arg2 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    binary main_v5 main_v12 main_v13 ((fun x i => Host.gather gather_S128_S65536x1_S65536_n_0_n_n_0_1_1 x i) : (⟨S128, .i32⟩ : BufTy).Contents (Elt F) → (⟨S65536x1, .i32⟩ : BufTy).Contents (Elt F) → (⟨S65536, .i32⟩ : BufTy).Contents (Elt F)),
    binary main_v6 main_v13 main_v14 (subi : (⟨S65536, .i32⟩ : BufTy).Contents (Elt F) → (⟨S65536, .i32⟩ : BufTy).Contents (Elt F) → (⟨S65536, .i32⟩ : BufTy).Contents (Elt F)),
    nullary main_cst (constant S_ .f32 0x00000000#32),
    unary main_cst main_v15 (broadcastInDim S128x1024x16 ![] bcast_S_S128x1024x16 : (⟨S_, .f32⟩ : BufTy).Contents (Elt F) → (⟨S128x1024x16, .f32⟩ : BufTy).Contents (Elt F)),
    nullary main_c_3 (constantI S_ 32 0#32),
    unary main_c_3 main_v16 (broadcastInDim S65536 ![] bcast_S_S65536 : (⟨S_, .i32⟩ : BufTy).Contents (Elt F) → (⟨S65536, .i32⟩ : BufTy).Contents (Elt F)),
    binary main_arg2 main_v16 main_v17 (cmpi .slt : (⟨S65536, .i32⟩ : BufTy).Contents (Elt F) → (⟨S65536, .i32⟩ : BufTy).Contents (Elt F) → (⟨S65536, .i1⟩ : BufTy).Contents (Elt F)),
    nullary main_c_4 (constantI S_ 32 128#32),
    unary main_c_4 main_v18 (broadcastInDim S65536 ![] bcast_S_S65536 : (⟨S_, .i32⟩ : BufTy).Contents (Elt F) → (⟨S65536, .i32⟩ : BufTy).Contents (Elt F)),
    binary main_arg2 main_v18 main_v19 (addi : (⟨S65536, .i32⟩ : BufTy).Contents (Elt F) → (⟨S65536, .i32⟩ : BufTy).Contents (Elt F) → (⟨S65536, .i32⟩ : BufTy).Contents (Elt F)),
    ternary main_v17 main_v19 main_arg2 main_v20 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_5 (constantI S_ 32 0#32),
    unary main_c_5 main_v21 (broadcastInDim S65536 ![] bcast_S_S65536 : (⟨S_, .i32⟩ : BufTy).Contents (Elt F) → (⟨S65536, .i32⟩ : BufTy).Contents (Elt F)),
    binary main_v14 main_v21 main_v22 (cmpi .slt : (⟨S65536, .i32⟩ : BufTy).Contents (Elt F) → (⟨S65536, .i32⟩ : BufTy).Contents (Elt F) → (⟨S65536, .i1⟩ : BufTy).Contents (Elt F)),
    nullary main_c_6 (constantI S_ 32 1024#32),
    unary main_c_6 main_v23 (broadcastInDim S65536 ![] bcast_S_S65536 : (⟨S_, .i32⟩ : BufTy).Contents (Elt F) → (⟨S65536, .i32⟩ : BufTy).Contents (Elt F)),
    binary main_v14 main_v23 main_v24 (addi : (⟨S65536, .i32⟩ : BufTy).Contents (Elt F) → (⟨S65536, .i32⟩ : BufTy).Contents (Elt F) → (⟨S65536, .i32⟩ : BufTy).Contents (Elt F)),
    ternary main_v22 main_v24 main_v14 main_v25 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v20 main_v26 (broadcastInDim S65536x1 ![0] bcast_S65536_S65536x1_0 : (⟨S65536, .i32⟩ : BufTy).Contents (Elt F) → (⟨S65536x1, .i32⟩ : BufTy).Contents (Elt F)),
    unary main_v25 main_v27 (broadcastInDim S65536x1 ![0] bcast_S65536_S65536x1_0 : (⟨S65536, .i32⟩ : BufTy).Contents (Elt F) → (⟨S65536x1, .i32⟩ : BufTy).Contents (Elt F)),
    binary main_v26 main_v27 main_v28 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    ternary main_v15 main_v28 main_arg0 main_v29 ((fun x i u => Host.scatter scatter_S128x1024x16_S65536x2_S65536x16_1_01_01_1 (fun _ b => b) x i u) : (⟨S128x1024x16, .f32⟩ : BufTy).Contents (Elt F) → (⟨S65536x2, .i32⟩ : BufTy).Contents (Elt F) → (⟨S65536x16, .f32⟩ : BufTy).Contents (Elt F) → (⟨S128x1024x16, .f32⟩ : BufTy).Contents (Elt F)),
    binary main_arg1 main_v29 main_v30 ((fun l r => Host.dotGeneral dot_S128x1024x1024_S128x1024x16_S128x1024x16_2_1_1_2_0_0 none l r) : (⟨S128x1024x1024, .f32⟩ : BufTy).Contents (Elt F) → (⟨S128x1024x16, .f32⟩ : BufTy).Contents (Elt F) → (⟨S128x1024x16, .f32⟩ : BufTy).Contents (Elt F)),
    nullary main_c_7 (constantI S_ 32 0#32),
    unary main_c_7 main_v31 (broadcastInDim S65536 ![] bcast_S_S65536 : (⟨S_, .i32⟩ : BufTy).Contents (Elt F) → (⟨S65536, .i32⟩ : BufTy).Contents (Elt F)),
    binary main_arg2 main_v31 main_v32 (cmpi .slt : (⟨S65536, .i32⟩ : BufTy).Contents (Elt F) → (⟨S65536, .i32⟩ : BufTy).Contents (Elt F) → (⟨S65536, .i1⟩ : BufTy).Contents (Elt F)),
    nullary main_c_8 (constantI S_ 32 128#32),
    unary main_c_8 main_v33 (broadcastInDim S65536 ![] bcast_S_S65536 : (⟨S_, .i32⟩ : BufTy).Contents (Elt F) → (⟨S65536, .i32⟩ : BufTy).Contents (Elt F)),
    binary main_arg2 main_v33 main_v34 (addi : (⟨S65536, .i32⟩ : BufTy).Contents (Elt F) → (⟨S65536, .i32⟩ : BufTy).Contents (Elt F) → (⟨S65536, .i32⟩ : BufTy).Contents (Elt F)),
    ternary main_v32 main_v34 main_arg2 main_v35 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_9 (constantI S_ 32 0#32),
    unary main_c_9 main_v36 (broadcastInDim S65536 ![] bcast_S_S65536 : (⟨S_, .i32⟩ : BufTy).Contents (Elt F) → (⟨S65536, .i32⟩ : BufTy).Contents (Elt F)),
    binary main_v14 main_v36 main_v37 (cmpi .slt : (⟨S65536, .i32⟩ : BufTy).Contents (Elt F) → (⟨S65536, .i32⟩ : BufTy).Contents (Elt F) → (⟨S65536, .i1⟩ : BufTy).Contents (Elt F)),
    nullary main_c_10 (constantI S_ 32 1024#32),
    unary main_c_10 main_v38 (broadcastInDim S65536 ![] bcast_S_S65536 : (⟨S_, .i32⟩ : BufTy).Contents (Elt F) → (⟨S65536, .i32⟩ : BufTy).Contents (Elt F)),
    binary main_v14 main_v38 main_v39 (addi : (⟨S65536, .i32⟩ : BufTy).Contents (Elt F) → (⟨S65536, .i32⟩ : BufTy).Contents (Elt F) → (⟨S65536, .i32⟩ : BufTy).Contents (Elt F)),
    ternary main_v37 main_v39 main_v14 main_v40 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v35 main_v41 (broadcastInDim S65536x1 ![0] bcast_S65536_S65536x1_0 : (⟨S65536, .i32⟩ : BufTy).Contents (Elt F) → (⟨S65536x1, .i32⟩ : BufTy).Contents (Elt F)),
    unary main_v40 main_v42 (broadcastInDim S65536x1 ![0] bcast_S65536_S65536x1_0 : (⟨S65536, .i32⟩ : BufTy).Contents (Elt F) → (⟨S65536x1, .i32⟩ : BufTy).Contents (Elt F)),
    binary main_v41 main_v42 main_v43 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    binary main_v30 main_v43 main_v44 ((fun x i => Host.gather gather_S128x1024x16_S65536x2_S65536x16_1_01_n_n_01_1_1116 x i) : (⟨S128x1024x16, .f32⟩ : BufTy).Contents (Elt F) → (⟨S65536x2, .i32⟩ : BufTy).Contents (Elt F) → (⟨S65536x16, .f32⟩ : BufTy).Contents (Elt F)) ]

/-- They are the address lines, the layout lines, the product and the read-back lines. -/
theorem ops_stages : (ops : List (HloOp τ sig (Elt F))) = (prepOps ++ layOps) ++ ([dotOp] ++ tailOps) := rfl

set_option maxRecDepth 2048 in
/-- @main is that straight line, once the called function is unfolded at its call and sequencing reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

/-- Every weakly fair execution of @main terminates with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- What the reference computes: the rows, in node order, of the batched product of the matrices with the features laid
    out graph by graph. -/
def result (x : FVec F S65536x16 .f32) (M : FVec F S128x1024x1024 .f32) (g : IVec S65536 32) : FVec F S65536x16 .f32 :=
  Cert.Glue.rowsBack glueFacts
    (Host.dotGeneral dot_S128x1024x1024_S128x1024x16_S128x1024x16_2_1_1_2_0_0 none M
      (Cert.Glue.dense glueFacts x g (Cert.Glue.pos glueFacts g)))
    g (Cert.Glue.pos glueFacts g)

/-- The product line writes the product of the matrices and the laid-out features, and keeps the rows and graph ids. -/
theorem dot_out (W : Valuation τ sig (Elt F)) :
    after [dotOp] W (main_v30 : DevRef τ sig)
      = Host.dotGeneral dot_S128x1024x1024_S128x1024x16_S128x1024x16_2_1_1_2_0_0 none (W (main_arg1 : DevRef τ sig))
          (W (main_v29 : DevRef τ sig)) := by
  after_results_simp
theorem dot_pos (W : Valuation τ sig (Elt F)) : after [dotOp] W (main_v14 : DevRef τ sig) = W (main_v14 : DevRef τ sig) := by
  after_results_simp
theorem dot_arg2 (W : Valuation τ sig (Elt F)) : after [dotOp] W (main_arg2 : DevRef τ sig) = W (main_arg2 : DevRef τ sig) := by
  after_results_simp

/-- The fold at the result buffer is `result` of the argument buffers' contents. -/
theorem result_eq (V : Valuation τ sig (Elt F)) :
    after ops V (main_v44 : DevRef τ sig)
      = result (V (main_arg0 : DevRef τ sig)) (V (main_arg1 : DevRef τ sig)) (V (main_arg2 : DevRef τ sig)) := by
  rw [ops_stages, Cert.LibAfter.after_append, Cert.LibAfter.after_append, tail_rows, dot_out, dot_pos, dot_arg2, head_arg1, head_arg2,
    head_pos, head_dense]
  rfl

set_option maxHeartbeats 1000000 in
theorem arg0_eq (V : Valuation τ sig (Elt F)) : after ops V (main_arg0 : DevRef τ sig) = V (main_arg0 : DevRef τ sig) := by
  after_results_simp
set_option maxHeartbeats 1000000 in
theorem arg1_eq (V : Valuation τ sig (Elt F)) : after ops V (main_arg1 : DevRef τ sig) = V (main_arg1 : DevRef τ sig) := by
  after_results_simp
set_option maxHeartbeats 1000000 in
theorem arg2_eq (V : Valuation τ sig (Elt F)) : after ops V (main_arg2 : DevRef τ sig) = V (main_arg2 : DevRef τ sig) := by
  after_results_simp

/-- The run, read: the result buffer at `result` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v44).trans (result_eq _), (h c main_arg0).trans (arg0_eq _),
      (h c main_arg1).trans (arg1_eq _), (h c main_arg2).trans (arg2_eq _)⟩) (run_fold m ρ)

end Cert.ReferenceIdeal.Hand

end
-- ==== Proof.KernelHost.lean ====
/-
  The kernel program's host lines, read: what the lines before the launch leave in the two buffers the rest of the
  program reads — each node's row inside its graph, and the features laid out graph by graph — and what the lines after
  the launch make of the launch's result array: its rows read back in node order. All three are the shared host
  functions of HostGlue applied to the argument arrays, by computation over the operations' fold, one stretch of lines
  at a time.
-/
import proofs.«107157_j50173807952912_1_alg».proof.Proof.Gen.KernelIdeal.Frame
import proofs.«107157_j50173807952912_1_alg».proof.Proof.HostGlue
import proofs.«107157_j50173807952912_1_alg».proof.Proof.LibAfter
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The shape relations of the shared host arithmetic, from the program's stated facts. -/
theorem glueFacts : Cert.Glue.Facts :=
  ⟨bcast_S_S65536, bcast_S_S128, bcast_S65536_S65536x1_0, bcast_S_S_, reduceWindows_S128_S128_w128s1p127_0, h_S_, bcast_S_S128x1024x16,
    concatenates_S65536x1_S65536x1_S65536x2_d1, scatter_S128_S65536x1_S65536_n_0_0_1_wf, gather_S128_S65536x1_S65536_n_0_n_n_0_1_1_wf,
    scatter_S128x1024x16_S65536x2_S65536x16_1_01_01_1_wf, gather_S128x1024x16_S65536x2_S65536x16_1_01_n_n_01_1_1116_wf⟩

/-- The lines that compute each node's address: the counts, their running sum (the called function's three lines
    where it is called), the rows, the two wrapped columns. -/
abbrev prepOps : List (HloOp τ sig (Elt F)) :=
  [ nullary main_c (constantI S_ 32 1#32),
    unary main_c main_v0 (broadcastInDim S65536 ![] bcast_S_S65536 : (⟨S_, .i32⟩ : BufTy).Contents (Elt F) → (⟨S65536, .i32⟩ : BufTy).Contents (Elt F)),
    nullary main_c_0 (constantI S_ 32 0#32),
    unary main_c_0 main_v1 (broadcastInDim S128 ![] bcast_S_S128 : (⟨S_, .i32⟩ : BufTy).Contents (Elt F) → (⟨S128, .i32⟩ : BufTy).Contents (Elt F)),
    unary main_arg2 main_v2 (broadcastInDim S65536x1 ![0] bcast_S65536_S65536x1_0 : (⟨S65536, .i32⟩ : BufTy).Contents (Elt F) → (⟨S65536x1, .i32⟩ : BufTy).Contents (Elt F)),
    ternary main_v1 main_v2 main_v0 main_v3 ((fun x i u => Host.scatter scatter_S128_S65536x1_S65536_n_0_0_1 IntOp.addi x i u) : (⟨S128, .i32⟩ : BufTy).Contents (Elt F) → (⟨S65536x1, .i32⟩ : BufTy).Contents (Elt F) → (⟨S65536, .i32⟩ : BufTy).Contents (Elt F) → (⟨S128, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v3 : TRef sig ⟨S128, .i32⟩) (.of main_call0_call0_v0 : TRef sig ⟨S_, .i32⟩) (.of main_v4 : TRef sig ⟨S128, .i32⟩) (fun x v => Host.reduceWindow IntOp.addi ![128] ![1] ![127] ![0] x v reduceWindows_S128_S128_w128s1p127_0 h_S_),
    binary main_v4 main_v3 main_v5 (subi : (⟨S128, .i32⟩ : BufTy).Contents (Elt F) → (⟨S128, .i32⟩ : BufTy).Contents (Elt F) → (⟨S128, .i32⟩ : BufTy).Contents (Elt F)),
    nullary main_v6 (iotaInDim S65536 32 0),
    nullary main_c_1 (constantI S_ 32 0#32),
    unary main_c_1 main_v7 (broadcastInDim S65536 ![] bcast_S_S65536 : (⟨S_, .i32⟩ : BufTy).Contents (Elt F) → (⟨S65536, .i32⟩ : BufTy).Contents (Elt F)),
    binary main_arg2 main_v7 main_v8 (cmpi .slt : (⟨S65536, .i32⟩ : BufTy).Contents (Elt F) → (⟨S65536, .i32⟩ : BufTy).Contents (Elt F) → (⟨S65536, .i1⟩ : BufTy).Contents (Elt F)),
    nullary main_c_2 (constantI S_ 32 128#32),
    unary main_c_2 main_v9 (broadcastInDim S65536 ![] bcast_S_S65536 : (⟨S_, .i32⟩ : BufTy).Contents (Elt F) → (⟨S65536, .i32⟩ : BufTy).Contents (Elt F)),
    binary main_arg2 main_v9 main_v10 (addi : (⟨S65536, .i32⟩ : BufTy).Contents (Elt F) → (⟨S65536, .i32⟩ : BufTy).Contents (Elt F) → (⟨S65536, .i32⟩ : BufTy).Contents (Elt F)),
    ternary main_v8 main_v10 main_arg2 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    binary main_v5 main_v12 main_v13 ((fun x i => Host.gather gather_S128_S65536x1_S65536_n_0_n_n_0_1_1 x i) : (⟨S128, .i32⟩ : BufTy).Contents (Elt F) → (⟨S65536x1, .i32⟩ : BufTy).Contents (Elt F) → (⟨S65536, .i32⟩ : BufTy).Contents (Elt F)),
    binary main_v6 main_v13 main_v14 (subi : (⟨S65536, .i32⟩ : BufTy).Contents (Elt F) → (⟨S65536, .i32⟩ : BufTy).Contents (Elt F) → (⟨S65536, .i32⟩ : BufTy).Contents (Elt F)),
    nullary main_cst (constant S_ .f32 0x00000000#32),
    unary main_cst main_v15 (broadcastInDim S128x1024x16 ![] bcast_S_S128x1024x16 : (⟨S_, .f32⟩ : BufTy).Contents (Elt F) → (⟨S128x1024x16, .f32⟩ : BufTy).Contents (Elt F)),
    nullary main_c_3 (constantI S_ 32 0#32),
    unary main_c_3 main_v16 (broadcastInDim S65536 ![] bcast_S_S65536 : (⟨S_, .i32⟩ : BufTy).Contents (Elt F) → (⟨S65536, .i32⟩ : BufTy).Contents (Elt F)),
    binary main_arg2 main_v16 main_v17 (cmpi .slt : (⟨S65536, .i32⟩ : BufTy).Contents (Elt F) → (⟨S65536, .i32⟩ : BufTy).Contents (Elt F) → (⟨S65536, .i1⟩ : BufTy).Contents (Elt F)),
    nullary main_c_4 (constantI S_ 32 128#32),
    unary main_c_4 main_v18 (broadcastInDim S65536 ![] bcast_S_S65536 : (⟨S_, .i32⟩ : BufTy).Contents (Elt F) → (⟨S65536, .i32⟩ : BufTy).Contents (Elt F)),
    binary main_arg2 main_v18 main_v19 (addi : (⟨S65536, .i32⟩ : BufTy).Contents (Elt F) → (⟨S65536, .i32⟩ : BufTy).Contents (Elt F) → (⟨S65536, .i32⟩ : BufTy).Contents (Elt F)),
    ternary main_v17 main_v19 main_arg2 main_v20 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_5 (constantI S_ 32 0#32),
    unary main_c_5 main_v21 (broadcastInDim S65536 ![] bcast_S_S65536 : (⟨S_, .i32⟩ : BufTy).Contents (Elt F) → (⟨S65536, .i32⟩ : BufTy).Contents (Elt F)),
    binary main_v14 main_v21 main_v22 (cmpi .slt : (⟨S65536, .i32⟩ : BufTy).Contents (Elt F) → (⟨S65536, .i32⟩ : BufTy).Contents (Elt F) → (⟨S65536, .i1⟩ : BufTy).Contents (Elt F)),
    nullary main_c_6 (constantI S_ 32 1024#32),
    unary main_c_6 main_v23 (broadcastInDim S65536 ![] bcast_S_S65536 : (⟨S_, .i32⟩ : BufTy).Contents (Elt F) → (⟨S65536, .i32⟩ : BufTy).Contents (Elt F)),
    binary main_v14 main_v23 main_v24 (addi : (⟨S65536, .i32⟩ : BufTy).Contents (Elt F) → (⟨S65536, .i32⟩ : BufTy).Contents (Elt F) → (⟨S65536, .i32⟩ : BufTy).Contents (Elt F)),
    ternary main_v22 main_v24 main_v14 main_v25 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v20 main_v26 (broadcastInDim S65536x1 ![0] bcast_S65536_S65536x1_0 : (⟨S65536, .i32⟩ : BufTy).Contents (Elt F) → (⟨S65536x1, .i32⟩ : BufTy).Contents (Elt F)),
    unary main_v25 main_v27 (broadcastInDim S65536x1 ![0] bcast_S65536_S65536x1_0 : (⟨S65536, .i32⟩ : BufTy).Contents (Elt F) → (⟨S65536x1, .i32⟩ : BufTy).Contents (Elt F)) ]

/-- The two lines that lay the features out: the address pairs, and the scatter of the feature rows at them. -/
abbrev layOps : List (HloOp τ sig (Elt F)) :=
  [ binary main_v26 main_v27 main_v28 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    ternary main_v15 main_v28 main_arg0 main_v29 ((fun x i u => Host.scatter scatter_S128x1024x16_S65536x2_S65536x16_1_01_01_1 (fun _ b => b) x i u) : (⟨S128x1024x16, .f32⟩ : BufTy).Contents (Elt F) → (⟨S65536x2, .i32⟩ : BufTy).Contents (Elt F) → (⟨S65536x16, .f32⟩ : BufTy).Contents (Elt F) → (⟨S128x1024x16, .f32⟩ : BufTy).Contents (Elt F)) ]

/-- The lines after the product: the address pairs again, and the gather of the product's rows at them. -/
abbrev tailOps : List (HloOp τ sig (Elt F)) :=
  [ nullary main_c_7 (constantI S_ 32 0#32),
    unary main_c_7 main_v31 (broadcastInDim S65536 ![] bcast_S_S65536 : (⟨S_, .i32⟩ : BufTy).Contents (Elt F) → (⟨S65536, .i32⟩ : BufTy).Contents (Elt F)),
    binary main_arg2 main_v31 main_v32 (cmpi .slt : (⟨S65536, .i32⟩ : BufTy).Contents (Elt F) → (⟨S65536, .i32⟩ : BufTy).Contents (Elt F) → (⟨S65536, .i1⟩ : BufTy).Contents (Elt F)),
    nullary main_c_8 (constantI S_ 32 128#32),
    unary main_c_8 main_v33 (broadcastInDim S65536 ![] bcast_S_S65536 : (⟨S_, .i32⟩ : BufTy).Contents (Elt F) → (⟨S65536, .i32⟩ : BufTy).Contents (Elt F)),
    binary main_arg2 main_v33 main_v34 (addi : (⟨S65536, .i32⟩ : BufTy).Contents (Elt F) → (⟨S65536, .i32⟩ : BufTy).Contents (Elt F) → (⟨S65536, .i32⟩ : BufTy).Contents (Elt F)),
    ternary main_v32 main_v34 main_arg2 main_v35 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_9 (constantI S_ 32 0#32),
    unary main_c_9 main_v36 (broadcastInDim S65536 ![] bcast_S_S65536 : (⟨S_, .i32⟩ : BufTy).Contents (Elt F) → (⟨S65536, .i32⟩ : BufTy).Contents (Elt F)),
    binary main_v14 main_v36 main_v37 (cmpi .slt : (⟨S65536, .i32⟩ : BufTy).Contents (Elt F) → (⟨S65536, .i32⟩ : BufTy).Contents (Elt F) → (⟨S65536, .i1⟩ : BufTy).Contents (Elt F)),
    nullary main_c_10 (constantI S_ 32 1024#32),
    unary main_c_10 main_v38 (broadcastInDim S65536 ![] bcast_S_S65536 : (⟨S_, .i32⟩ : BufTy).Contents (Elt F) → (⟨S65536, .i32⟩ : BufTy).Contents (Elt F)),
    binary main_v14 main_v38 main_v39 (addi : (⟨S65536, .i32⟩ : BufTy).Contents (Elt F) → (⟨S65536, .i32⟩ : BufTy).Contents (Elt F) → (⟨S65536, .i32⟩ : BufTy).Contents (Elt F)),
    ternary main_v37 main_v39 main_v14 main_v40 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v35 main_v41 (broadcastInDim S65536x1 ![0] bcast_S65536_S65536x1_0 : (⟨S65536, .i32⟩ : BufTy).Contents (Elt F) → (⟨S65536x1, .i32⟩ : BufTy).Contents (Elt F)),
    unary main_v40 main_v42 (broadcastInDim S65536x1 ![0] bcast_S65536_S65536x1_0 : (⟨S65536, .i32⟩ : BufTy).Contents (Elt F) → (⟨S65536x1, .i32⟩ : BufTy).Contents (Elt F)),
    binary main_v41 main_v42 main_v43 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    binary main_v30 main_v43 main_v44 ((fun x i => Host.gather gather_S128x1024x16_S65536x2_S65536x16_1_01_n_n_01_1_1116 x i) : (⟨S128x1024x16, .f32⟩ : BufTy).Contents (Elt F) → (⟨S65536x2, .i32⟩ : BufTy).Contents (Elt F) → (⟨S65536x16, .f32⟩ : BufTy).Contents (Elt F)) ]

section Prep
attribute [local irreducible] Host.scatter Host.gather Host.reduceWindow concatenate

set_option maxHeartbeats 1000000 in
/-- After the address lines, the rows buffer holds each node's row inside its graph. -/
theorem prep_pos (W : Valuation τ sig (Elt F)) :
    after prepOps W (main_v14 : DevRef τ sig) = Cert.Glue.pos glueFacts (W (main_arg2 : DevRef τ sig)) := by
  after_results_simp
  simp only [TRef.toBuf, TRef.ofBuf, cast_eq]
  unfold Cert.Glue.pos Cert.Glue.starts Cert.Glue.counts Cert.Glue.wrap Cert.Glue.asCol Cert.Glue.splatNodes
  rfl

set_option maxHeartbeats 1000000 in
/-- After the address lines, the first address column: the graph ids, wrapped. -/
theorem prep_graphCol (W : Valuation τ sig (Elt F)) :
    after prepOps W (main_v26 : DevRef τ sig)
      = Cert.Glue.asCol glueFacts (Cert.Glue.wrap glueFacts 128#32 (W (main_arg2 : DevRef τ sig))) := by
  after_results_simp
  unfold Cert.Glue.wrap Cert.Glue.asCol Cert.Glue.splatNodes
  rfl

set_option maxHeartbeats 1000000 in
/-- After the address lines, the second address column: the rows, wrapped. -/
theorem prep_rowCol (W : Valuation τ sig (Elt F)) :
    after prepOps W (main_v27 : DevRef τ sig)
      = Cert.Glue.asCol glueFacts (Cert.Glue.wrap glueFacts 1024#32 (Cert.Glue.pos glueFacts (W (main_arg2 : DevRef τ sig)))) := by
  after_results_simp
  simp only [TRef.toBuf, TRef.ofBuf, cast_eq]
  unfold Cert.Glue.pos Cert.Glue.starts Cert.Glue.counts Cert.Glue.wrap Cert.Glue.asCol Cert.Glue.splatNodes
  rfl

/-- After the address lines, the array the features are scattered into is all zeros. -/
theorem prep_zeros (W : Valuation τ sig (Elt F)) :
    after prepOps W (main_v15 : DevRef τ sig)
      = broadcastInDim Cert.Glue.Padded ![] glueFacts.scalarToPadded (constant Cert.Glue.Scalar0 .f32 0x00000000#32) := by
  after_results_simp

/-- The address lines write none of the three arguments. -/
theorem prep_arg0 (W : Valuation τ sig (Elt F)) : after prepOps W (main_arg0 : DevRef τ sig) = W (main_arg0 : DevRef τ sig) := by
  after_results_simp
theorem prep_arg1 (W : Valuation τ sig (Elt F)) : after prepOps W (main_arg1 : DevRef τ sig) = W (main_arg1 : DevRef τ sig) := by
  after_results_simp
theorem prep_arg2 (W : Valuation τ sig (Elt F)) : after prepOps W (main_arg2 : DevRef τ sig) = W (main_arg2 : DevRef τ sig) := by
  after_results_simp

/-- The layout lines, from contents whose two address columns, zero array and features are named: the features laid
    out graph by graph. -/
theorem lay_dense (W : Valuation τ sig (Elt F)) (x : FVec F Cert.Glue.Feat .f32) (g p : IVec Cert.Glue.Nodes 32)
    (hz : W (main_v15 : DevRef τ sig)
      = broadcastInDim Cert.Glue.Padded ![] glueFacts.scalarToPadded (constant Cert.Glue.Scalar0 .f32 0x00000000#32))
    (hg : W (main_v26 : DevRef τ sig) = Cert.Glue.asCol glueFacts (Cert.Glue.wrap glueFacts 128#32 g))
    (hp : W (main_v27 : DevRef τ sig) = Cert.Glue.asCol glueFacts (Cert.Glue.wrap glueFacts 1024#32 p))
    (hx : W (main_arg0 : DevRef τ sig) = x) :
    after layOps W (main_v29 : DevRef τ sig) = Cert.Glue.dense glueFacts x g p := by
  after_results_simp
  rw [hz, hg, hp, hx]
  rfl

/-- The layout lines keep the rows buffer, the matrices and the graph ids. -/
theorem lay_pos (W : Valuation τ sig (Elt F)) : after layOps W (main_v14 : DevRef τ sig) = W (main_v14 : DevRef τ sig) := by
  after_results_simp
theorem lay_arg1 (W : Valuation τ sig (Elt F)) : after layOps W (main_arg1 : DevRef τ sig) = W (main_arg1 : DevRef τ sig) := by
  after_results_simp
theorem lay_arg2 (W : Valuation τ sig (Elt F)) : after layOps W (main_arg2 : DevRef τ sig) = W (main_arg2 : DevRef τ sig) := by
  after_results_simp

set_option maxHeartbeats 1000000 in
/-- The lines after the product leave in the result buffer the rows of the product buffer read back in node order. -/
theorem tail_rows (W : Valuation τ sig (Elt F)) :
    after tailOps W (main_v44 : DevRef τ sig)
      = Cert.Glue.rowsBack glueFacts (W (main_v30 : DevRef τ sig)) (W (main_arg2 : DevRef τ sig)) (W (main_v14 : DevRef τ sig)) := by
  after_results_simp
  rfl

end Prep

/-- From any contents, after the address and layout lines: the rows buffer, the laid-out features, and the matrices and
    graph ids untouched. -/
theorem head_pos (W : Valuation τ sig (Elt F)) :
    after (prepOps ++ layOps) W (main_v14 : DevRef τ sig) = Cert.Glue.pos glueFacts (W (main_arg2 : DevRef τ sig)) := by
  rw [Cert.LibAfter.after_append, lay_pos, prep_pos]
theorem head_dense (W : Valuation τ sig (Elt F)) :
    after (prepOps ++ layOps) W (main_v29 : DevRef τ sig)
      = Cert.Glue.dense glueFacts (W (main_arg0 : DevRef τ sig)) (W (main_arg2 : DevRef τ sig))
          (Cert.Glue.pos glueFacts (W (main_arg2 : DevRef τ sig))) := by
  rw [Cert.LibAfter.after_append]
  exact lay_dense _ _ _ _ (prep_zeros W) (prep_graphCol W) (prep_rowCol W) (prep_arg0 W)
theorem head_arg1 (W : Valuation τ sig (Elt F)) :
    after (prepOps ++ layOps) W (main_arg1 : DevRef τ sig) = W (main_arg1 : DevRef τ sig) := by
  rw [Cert.LibAfter.after_append, lay_arg1, prep_arg1]
theorem head_arg2 (W : Valuation τ sig (Elt F)) :
    after (prepOps ++ layOps) W (main_arg2 : DevRef τ sig) = W (main_arg2 : DevRef τ sig) := by
  rw [Cert.LibAfter.after_append, lay_arg2, prep_arg2]

/-- The lines before the launch are the address lines followed by the layout lines. -/
theorem head_list : List.flatten [hostOps0, hostOps0_1, hostOps0_2] = (prepOps ++ layOps : List (HloOp τ sig (Elt F))) := rfl

/-- The lines after the launch. -/
theorem tail_list : (hostOps1 : List (HloOp τ sig (Elt F))) = tailOps := rfl

variable (m : (ℓ : Loc nD τ sig) → Buf (Elt F) ℓ)

/-- At the launch, the rows buffer as a function of the graph ids. -/
theorem V_pos (c : Dev nD) :
    V m c main_v14 = Cert.Glue.pos glueFacts (m ((c : Thread nD τ).loc main_arg2)) := by
  show after (List.flatten [hostOps0, hostOps0_1, hostOps0_2]) (fun b => m (c, b)) (main_v14 : DevRef τ sig) = _
  rw [head_list]
  exact head_pos (fun b => m (c, b))

/-- At the launch, the kernel's second operand as a function of the features and the graph ids. -/
theorem V_dense (c : Dev nD) :
    V m c main_v29 = Cert.Glue.dense glueFacts (m ((c : Thread nD τ).loc main_arg0)) (m ((c : Thread nD τ).loc main_arg2))
        (Cert.Glue.pos glueFacts (m ((c : Thread nD τ).loc main_arg2))) := by
  show after (List.flatten [hostOps0, hostOps0_1, hostOps0_2]) (fun b => m (c, b)) (main_v29 : DevRef τ sig) = _
  rw [head_list]
  exact head_dense (fun b => m (c, b))

/-- The program's result buffer after the lines that follow the launch: the rows of the launch's result array, whatever
    it is, read back at each node's address. -/
theorem result_rows (c : Dev nD) :
    Pipeline.afterTail₀ cfgs (dats m) 0 (V0 m) [hostOps1] c main_v44
      = Cert.Glue.rowsBack glueFacts ((dats m 0 c).arrAt 2 cfg0.N) (m ((c : Thread nD τ).loc main_arg2))
          (Cert.Glue.pos glueFacts (m ((c : Thread nD τ).loc main_arg2))) := by
  unfold Pipeline.afterTail₀
  show after hostOps1 _ (main_v44 : DevRef τ sig) = _
  rw [tail_list, tail_rows]
  have e30 : Pipeline.withArrays (cfgs 0).spec c (V0 m c) (fun w => (dats m 0 c).arrAt w (cfgs 0).N) (Proc.devRef .tc main_v30)
      = (dats m 0 c).arrAt 2 cfg0.N :=
    Pipeline.withArrays_arr spec0 launch0.win.arr_inj c _ _ 2
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e14 : Pipeline.withArrays (cfgs 0).spec c (V0 m c) (fun w => (dats m 0 c).arrAt w (cfgs 0).N) (Proc.devRef .tc main_v14)
      = Cert.Glue.pos glueFacts (m ((c : Thread nD τ).loc main_arg2)) :=
    (Pipeline.withArrays_of_ne _ c (V0 m c) _ main_v14 (by exact (by decide : ∀ w, Pipeline.arrRef spec0 w ≠ main_v14))).trans
      (V_pos m c)
  exact congr (congr (congrArg (Cert.Glue.rowsBack glueFacts) e30) e2) e14

end Cert.KernelIdeal.Hand

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.BatchDot.lean ====
/-
  The batched matrix product at the exact instance, read entry by entry.

  For 128 matrices M[b] of 1024×1024 and 128 blocks D[b] of 1024×16, entry (b, i, c) of the batched product is
  ∑ₖ M (b, i, k) · D (b, k, c). Two programs compute it:
  * the host's `dot_general` with batch axis 0 on both sides, contracting the left operand's last axis with the right
    operand's middle axis (`dotGeneral_eq_bmm`);
  * a kernel that, for one b, casts the two blocks [1, 1024, 1024] and [1, 1024, 16] to matrices, rounds them to
    bf16 (the identity on exact values), multiplies them into a zero accumulator and casts the product back to
    [1, 1024, 16] (`block_apply`).
  Both are the same finite sum of the same products, so no property of the extended reals' arithmetic is used.
-/
import proofs.«107157_j50173807952912_1_alg».proof.Proof.LibDense
import Idealize.ShloMosaic.Lib.ValueIdx
import Idealize.ShloMosaic.Lib.ValueLayout
import Idealize.ShloMosaic.PureOps.Ideal.Laws

noncomputable section

namespace Cert.BatchDot

open Idealize.ShloMosaic Idealize.ShloMosaic.ValueIdx

abbrev Mats : Shape := ⟨3, ![128, 1024, 1024]⟩
abbrev Padded : Shape := ⟨3, ![128, 1024, 16]⟩

/-- Entry (b, i, c) of the batched product. -/
def entry (M : FVec Ideal Mats .f32) (D : FVec Ideal Padded .f32) (b : Fin 128) (i : Fin 1024) (c : Fin 16) : EReal :=
  ∑ k : Fin 1024, M (ix3 b i k) * D (ix3 b k c)

/-- The batched product as one array. -/
def bmm (M : FVec Ideal Mats .f32) (D : FVec Ideal Padded .f32) : FVec Ideal Padded .f32 :=
  fun j => entry M D (j 0) (j 1) (j 2)

theorem bmm_ix3 (M : FVec Ideal Mats .f32) (D : FVec Ideal Padded .f32) (b : Fin 128) (i : Fin 1024) (c : Fin 16) :
    bmm M D (ix3 b i c) = entry M D b i c := rfl

/-! ## The host's batched `dot_general` -/

/-- Batch axis 0 on both sides; the left operand's axis 2 contracted with the right operand's axis 1. -/
abbrev batchDims (wf : DotDims.WF Mats Padded Padded [2] [1] [1] [2] [0] [0]) : DotDims Mats Padded Padded :=
  ⟨[2], [1], [1], [2], [0], [0], wf⟩

variable (wf : DotDims.WF Mats Padded Padded [2] [1] [1] [2] [0] [0])

/-- The left operand's index at output (b, i, c) and contraction coordinate k is (b, i, k). -/
theorem batch_lhsIdx (b : Fin 128) (i : Fin 1024) (c : Fin 16) (k : Fin 1024) :
    (batchDims wf).lhsIdx (ix3 b i c) ((contrEquiv1 (batchDims wf) 1024 rfl rfl).symm k) = ix3 b i k := by
  have hk := contrEquiv1_symm_val (batchDims wf) 1024 rfl rfl k
  funext a
  apply Fin.ext
  match a with
  | ⟨0, _⟩ => rfl
  | ⟨1, _⟩ => rfl
  | ⟨2, _⟩ => exact ((batchDims wf).lhsIdx_val_of_single rfl (ix3 b i c) _).trans hk

/-- The right operand's index at output (b, i, c) and contraction coordinate k is (b, k, c). -/
theorem batch_rhsIdx (b : Fin 128) (i : Fin 1024) (c : Fin 16) (k : Fin 1024) :
    (batchDims wf).rhsIdx (ix3 b i c) ((contrEquiv1 (batchDims wf) 1024 rfl rfl).symm k) = ix3 b k c := by
  have hk := contrEquiv1_symm_val (batchDims wf) 1024 rfl rfl k
  funext a
  apply Fin.ext
  match a with
  | ⟨0, _⟩ => rfl
  | ⟨1, _⟩ => exact ((batchDims wf).rhsIdx_val_of_single rfl (ix3 b i c) _).trans hk
  | ⟨2, _⟩ => rfl

/-- The host's batched product is `bmm`. -/
theorem dotGeneral_eq_bmm (prec : Option ContractPrecision) (sched : HostSchedule) (M : FVec Ideal Mats .f32)
    (D : FVec Ideal Padded .f32) : FloatOps.dotGeneral (batchDims wf) prec sched M D = bmm M D := by
  funext j
  obtain ⟨b, i, c, rfl⟩ : ∃ (b : Fin 128) (i : Fin 1024) (c : Fin 16), j = ix3 b i c := ⟨j 0, j 1, j 2, eq_ix3 j⟩
  rw [Ideal.dotGeneral_apply, ← Equiv.sum_comp (contrEquiv1 (batchDims wf) 1024 rfl rfl).symm, bmm_ix3]
  refine Finset.sum_congr rfl fun k _ => ?_
  rw [batch_lhsIdx, batch_rhsIdx]

/-! ## One graph's product in the kernel -/

/-- The kernel's payload at (u, i, c), u the unit coordinate: ∑ₖ x0 (0, i, k) · x1 (0, k, c). -/
theorem block_apply (x0 : FVec Ideal ⟨3, ![1, 1024, 1024]⟩ .f32) (x1 : FVec Ideal ⟨3, ![1, 1024, 16]⟩ .f32)
    (hm : (⟨3, ![1, 1024, 1024]⟩ : Shape).ShapeCasts ⟨2, ![1024, 1024]⟩)
    (hd : (⟨3, ![1, 1024, 16]⟩ : Shape).ShapeCasts ⟨2, ![1024, 16]⟩)
    (ho : (⟨2, ![1024, 16]⟩ : Shape).ShapeCasts ⟨3, ![1, 1024, 16]⟩)
    (hb : FTy.bits .bf16 < FTy.bits .f32) (prec : Option ContractPrecision) (u : Fin 1) (i : Fin 1024) (c : Fin 16) :
    shapeCast ⟨3, ![1, 1024, 16]⟩
        (matmul (DotDims.plain 1024 1024 16) prec (truncf .bf16 (shapeCast ⟨2, ![1024, 1024]⟩ x0 hm) hb)
          (truncf .bf16 (shapeCast ⟨2, ![1024, 16]⟩ x1 hd) hb) (constant ⟨2, ![1024, 16]⟩ .f32 0x00000000#32)) ho (ix3 u i c)
      = ∑ k : Fin 1024, x0 (ix3 (0 : Fin 1) i k) * x1 (ix3 (0 : Fin 1) k c) := by
  rw [shapeCast_ab_1ab_apply]
  refine (Cert.LibDense.plain_matmul_apply prec _ _ i c).trans ?_
  refine Finset.sum_congr rfl fun k _ => ?_
  rw [truncf_apply, truncf_apply, shapeCast_1ab_ab_apply, shapeCast_1ab_ab_apply]

end Cert.BatchDot

end
-- ==== Proof.KernelBlocks.lean ====
/-
  What the launch leaves in its result array, at the exact instance: the batched product of the matrices with the
  second operand as the launch finds them.

  The grid has one point per graph. At point t the body reads block t of the matrices ([1, 1024, 1024]: the whole
  matrix of graph t) and block t of the second operand ([1, 1024, 16]), and stores their product, which the pipeline
  writes back as block t of the result. Entry (u, i, c) of that product is ∑ₖ M (t, i, k) · D (t, k, c), which is
  entry (t, i, c) of the batched product; and the 128 blocks cover the result array, row block by row block.
-/
import proofs.«107157_j50173807952912_1_alg».proof.Proof.Gen.KernelIdeal.Frame
import proofs.«107157_j50173807952912_1_alg».proof.Proof.BatchDot
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.BatchDot (bmm entry bmm_ix3)

theorem hz3 : (![0, 0, 0] : Fin 3 → Nat) = fun _ => 0 := funext fun a => by fin_cases a <;> rfl

/-- The body's matrix product contracts the left operand's columns with the right operand's rows. -/
theorem dims_plain : dot_S1024x1024_S1024x16_S1024x16_1_0_0_1_n_n = DotDims.plain 1024 1024 16 := rfl

/-- The body's one store, at (u, i, c): the product of the two loaded blocks read as matrices. -/
theorem pay_apply (x0 : FVec Ideal S1x1024x1024 .f32) (x1 : FVec Ideal S1x1024x16 .f32) (u : Fin 1) (i : Fin 1024) (c : Fin 16) :
    k0_pay1 x0 x1 (ix3 u i c) = ∑ k : Fin 1024, x0 (ix3 (0 : Fin 1) i k) * x1 (ix3 (0 : Fin 1) k c) := by
  unfold k0_pay1
  rw [dims_plain]
  exact Cert.BatchDot.block_apply x0 x1 _ _ _ _ none u i c

/-- If the two loaded blocks are graph b's slabs of arrays A and D, the store at y is the batched product of A and D at
    the index j that has y's row and column in graph b. -/
theorem block_value (x0 : FVec Ideal S1x1024x1024 .f32) (x1 : FVec Ideal S1x1024x16 .f32)
    (A : FVec Ideal S128x1024x1024 .f32) (D : FVec Ideal S128x1024x16 .f32) (b : Fin 128)
    (h0 : ∀ (i k : Fin 1024), x0 (ix3 (0 : Fin 1) i k) = A (ix3 b i k))
    (h1 : ∀ (k : Fin 1024) (c : Fin 16), x1 (ix3 (0 : Fin 1) k c) = D (ix3 b k c))
    (y : S1x1024x16.Idx) (j : S128x1024x16.Idx)
    (hj0 : (j 0).val = b.val) (hj1 : (j 1).val = (y 1).val) (hj2 : (j 2).val = (y 2).val) :
    k0_pay1 x0 x1 y = bmm A D j := by
  obtain ⟨u, i, c, rfl⟩ : ∃ (u : Fin 1) (i : Fin 1024) (c : Fin 16), y = ix3 u i c := ⟨y 0, y 1, y 2, eq_ix3 y⟩
  obtain ⟨b', i', c', rfl⟩ : ∃ (b' : Fin 128) (i' : Fin 1024) (c' : Fin 16), j = ix3 b' i' c' := ⟨j 0, j 1, j 2, eq_ix3 j⟩
  obtain rfl : b' = b := Fin.ext hj0
  obtain rfl : i' = i := Fin.ext hj1
  obtain rfl : c' = c := Fin.ext hj2
  rw [pay_apply, bmm_ix3]
  unfold entry
  exact Finset.sum_congr rfl fun k _ => by rw [h0, h1]

/-- At grid point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Where point t's block of the matrices sits in their array: graph t's matrix. -/
theorem emb_mats (t : Fin cfg0.N) (b : Fin 128) (hb : b.val = t.val) (i k : Fin 1024) :
    ((cfg0.win 0).blk t).view.emb (ix3 (0 : Fin 1) i k) = (ix3 b i k : S128x1024x1024.Idx) := by
  obtain ⟨e0, e1, e2, -⟩ := idx_facts t
  funext a
  apply Fin.ext
  match a with
  | ⟨0, _⟩ => show win0_0.index t (0 : Fin 3) * 1 + 1 * 0 = b.val; omega
  | ⟨1, _⟩ => show win0_0.index t (1 : Fin 3) * 1024 + 1 * i.val = i.val; omega
  | ⟨2, _⟩ => show win0_0.index t (2 : Fin 3) * 1024 + 1 * k.val = k.val; omega

/-- Where point t's block of the second operand sits in its array: graph t's slab. -/
theorem emb_feats (t : Fin cfg0.N) (b : Fin 128) (hb : b.val = t.val) (k : Fin 1024) (q : Fin 16) :
    ((cfg0.win 1).blk t).view.emb (ix3 (0 : Fin 1) k q) = (ix3 b k q : S128x1024x16.Idx) := by
  obtain ⟨-, -, -, e0, e1, e2, -⟩ := idx_facts t
  funext a
  apply Fin.ext
  match a with
  | ⟨0, _⟩ => show win0_1.index t (0 : Fin 3) * 1 + 1 * 0 = b.val; omega
  | ⟨1, _⟩ => show win0_1.index t (1 : Fin 3) * 1024 + 1 * k.val = k.val; omega
  | ⟨2, _⟩ => show win0_1.index t (2 : Fin 3) * 16 + 1 * q.val = q.val; omega

/-- Point t's block of any contents of the matrices' array, read at (0, i, k): the contents at (t, i, k). -/
theorem read_mats (c : Dev nD) (A : Buf (Elt Ideal) ((c : Thread nD τ).loc main_arg1)) (t : Fin cfg0.N) (b : Fin 128)
    (hb : b.val = t.val) (i k : Fin 1024) :
    (((cfg0.win 0).blk t).view.read (Elt Ideal) A : FVec Ideal S1x1024x1024 .f32) (ix3 (0 : Fin 1) i k)
      = (A : FVec Ideal S128x1024x1024 .f32) (ix3 b i k) := by
  rw [View.read_apply, emb_mats t b hb i k]
  rfl

/-- Point t's block of any contents of the second operand's array, read at (0, k, q): the contents at (t, k, q). -/
theorem read_feats (c : Dev nD) (D : Buf (Elt Ideal) ((c : Thread nD τ).loc main_v29)) (t : Fin cfg0.N) (b : Fin 128)
    (hb : b.val = t.val) (k : Fin 1024) (q : Fin 16) :
    (((cfg0.win 1).blk t).view.read (Elt Ideal) D : FVec Ideal S1x1024x16 .f32) (ix3 (0 : Fin 1) k q)
      = (D : FVec Ideal S128x1024x16 .f32) (ix3 b k q) := by
  rw [View.read_apply, emb_feats t b hb k q]
  rfl

variable (m : (ℓ : Loc nD τ sig) → Buf (Elt Ideal) ℓ)

/-- The matrices' block at point t is graph t's matrix. -/
theorem mats_block (c : Dev nD) (t : Fin cfg0.N) (b : Fin 128) (hb : b.val = t.val) (i k : Fin 1024) :
    (iblk m c 0 t : FVec Ideal S1x1024x1024 .f32) (ix3 (0 : Fin 1) i k)
      = (V m c main_arg1 : FVec Ideal S128x1024x1024 .f32) (ix3 b i k) :=
  read_mats c (V m c main_arg1) t b hb i k

/-- The second operand's block at point t is graph t's slab. -/
theorem feats_block (c : Dev nD) (t : Fin cfg0.N) (b : Fin 128) (hb : b.val = t.val) (k : Fin 1024) (q : Fin 16) :
    (iblk m c 1 t : FVec Ideal S1x1024x16 .f32) (ix3 (0 : Fin 1) k q)
      = (V m c main_v29 : FVec Ideal S128x1024x16 .f32) (ix3 b k q) :=
  read_feats c (V m c main_v29) t b hb k q

/-- What point t writes back is block t of the batched product of the operands as the launch finds them. -/
theorem flushed_eq (c : Dev nD) (t : Fin cfg0.N) :
    (dats m 0 c).flushed 2 t
      = ((cfg0.win 2).blk t).view.read (Elt Ideal) (bmm (V m c main_arg1) (V m c main_v29)) := by
  show (cfg0.win 2).cut (grid0.coords t) ((dats m 0 c).after 2 t) = _
  rw [after0_2]
  unfold out0_2
  rw [View.canon_unit_zero hz3]
  simp only [View.ld_unit_zero (S := S1x1024x1024) hz3, View.ld_unit_zero (S := S1x1024x16) hz3]
  obtain ⟨-, -, -, -, -, -, e0, e1, e2⟩ := idx_facts t
  have ht : t.val < 128 := lt_of_lt_of_eq t.isLt (show cfg0.N = 128 from N_0)
  funext y
  show k0_pay1 (iblk m c 0 t) (iblk m c 1 t) y = bmm (V m c main_arg1) (V m c main_v29) (((cfg0.win 2).blk t).view.emb y)
  refine block_value (iblk m c 0 t) (iblk m c 1 t) (V m c main_arg1) (V m c main_v29) ⟨t.val, ht⟩
    (fun i k => mats_block m c t ⟨t.val, ht⟩ rfl i k) (fun k q => feats_block m c t ⟨t.val, ht⟩ rfl k q) y _ ?_ ?_ ?_
  · show win0_2.index t (0 : Fin 3) * 1 + 1 * (y 0).val = t.val
    have hy : (y 0).val < 1 := (y 0).isLt
    omega
  · show win0_2.index t (1 : Fin 3) * 1024 + 1 * (y 1).val = (y 1).val
    omega
  · show win0_2.index t (2 : Fin 3) * 16 + 1 * (y 2).val = (y 2).val
    omega

/-- An index of the result array is in point t's block iff each coordinate is in the block's range on its axis. -/
theorem mem_blk (t : Fin cfg0.N) (i : S128x1024x16.Idx) :
    i ∈ ((cfg0.win 2).blk t).view.set ↔ ∀ a : Fin 3, win0_2.index t a * S1x1024x16.size a ≤ (i a).val
      ∧ (i a).val < win0_2.index t a * S1x1024x16.size a + S1x1024x16.size a := by
  show i ∈ ((View.whole main_v30).slice (win0_2.rect t)).set ↔ _
  rw [View.set_slice_whole, Rect.mem_set_unit]
  exact Iff.rfl

/-- Every index of the result array is in the block of the point its graph coordinate names. -/
theorem covered (i : S128x1024x16.Idx) :
    ∃ t : Fin cfg0.N, (cfg0.win 2).flush t = true ∧ i ∈ ((cfg0.win 2).blk t).view.set := by
  have h0 : (i 0).val < 128 := (i 0).isLt
  have h1 : (i 1).val < 1024 := (i 1).isLt
  have h2 : (i 2).val < 16 := (i 2).isLt
  have hN : cfg0.N = 128 := N_0
  refine ⟨⟨(i 0).val, by rw [hN]; exact h0⟩, flush0_2 _, ?_⟩
  obtain ⟨-, -, -, -, -, -, e0, e1, e2⟩ := idx_facts ⟨(i 0).val, by rw [hN]; exact h0⟩
  rw [mem_blk]
  intro a
  match a with
  | ⟨0, _⟩ =>
    show win0_2.index _ (0 : Fin 3) * 1 ≤ (i 0).val ∧ (i 0).val < win0_2.index _ (0 : Fin 3) * 1 + 1
    rw [e0]; show (i 0).val * 1 ≤ (i 0).val ∧ (i 0).val < (i 0).val * 1 + 1; omega
  | ⟨1, _⟩ =>
    show win0_2.index _ (1 : Fin 3) * 1024 ≤ (i 1).val ∧ (i 1).val < win0_2.index _ (1 : Fin 3) * 1024 + 1024
    rw [e1]; omega
  | ⟨2, _⟩ =>
    show win0_2.index _ (2 : Fin 3) * 16 ≤ (i 2).val ∧ (i 2).val < win0_2.index _ (2 : Fin 3) * 16 + 16
    rw [e2]; omega

/-- The result array after the launch: the batched product of the operands as the launch finds them. -/
theorem final (c : Dev nD) :
    (dats m 0 c).arrAt 2 cfg0.N = bmm (V m c main_arg1) (V m c main_v29) :=
  (dats m 0 c).arrAt_eq_of_cover 2 (bmm (V m c main_arg1) (V m c main_v29)) (fun t _ => flushed_eq m c t) fun i => covered i

end Cert.KernelIdeal.Blocks

end
-- ==== Proof.KernelRun.lean ====
/-
  The kernel program's run, read at the exact instance: the result buffer ends at the rows, in node order, of the
  batched product of the matrices with the features laid out graph by graph — the lines before the launch
  (KernelHost), the launch's result array (KernelBlocks) and the lines after it (KernelHost) put together — and the
  three arguments end as launched.
-/
import proofs.«107157_j50173807952912_1_alg».proof.Proof.KernelHost
import proofs.«107157_j50173807952912_1_alg».proof.Proof.KernelBlocks

noncomputable section

namespace Cert.KernelIdeal.Hand

open Cert.KernelIdeal Cert.KernelIdeal.Gen Idealize.ShloMosaic Idealize.ShloMosaic.TcCoe Idealize.SL.Sem
open Idealize.ShloMosaic.Pipeline (Dat)

/-- What the kernel program computes, as a function of its three arguments. -/
def result (x : FVec Ideal S65536x16 .f32) (M : FVec Ideal S128x1024x1024 .f32) (g : IVec S65536 32) : FVec Ideal S65536x16 .f32 :=
  Cert.Glue.rowsBack glueFacts
    (Cert.BatchDot.bmm M (Cert.Glue.dense glueFacts x g (Cert.Glue.pos glueFacts g)))
    g (Cert.Glue.pos glueFacts g)

variable (m : (ℓ : Loc nD τ sig) → Buf (Elt Ideal) ℓ) (ρ : Dev nD → PrngReg)

/-- The result buffer's contents after the whole program. -/
theorem result_eq (c : Dev nD) :
    Pipeline.afterTail₀ cfgs (dats m) 0 (V0 m) [hostOps1] c main_v44
      = result (m ((c : Thread nD τ).loc main_arg0)) (m ((c : Thread nD τ).loc main_arg1)) (m ((c : Thread nD τ).loc main_arg2)) := by
  rw [result_rows, Cert.KernelIdeal.Blocks.final, V_main_arg1, V_dense]
  rfl

/-- The run, read: the result buffer at `result` of the arguments, the arguments unchanged. -/
theorem run : θ_run defs (onTc (τ := τ) (main (F := Ideal))) ⟨m, fun _ => 0, ρ⟩ fun r => ∀ c : Dev nD,
      r.2.mem ((c.tc : Thread nD τ).loc main_v44)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v44 (Pipeline.mem_restRefs_of main_v44 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Hand

end
-- ==== Proof.lean ====
/-
  The kernel lays 65536 node feature rows out as 128 padded graphs of 1024 rows (rows by graph id and by position inside
  the graph, computed by host scatter, running-sum and gather lines), multiplies each graph's 1024×1024 matrix with its
  1024×16 slab in one launch of 128 grid points, and reads the rows back in node order. The reference does the same
  host lines around ONE batched product.

  At the exact instance the two programs are the same function of the three arguments:
  * the host lines before and after the product are literally the same operations on the same values
    (Proof/HostGlue.lean states them once; Proof/KernelHost.lean and Proof/RefRun.lean read each program's lines as those
    functions), so they are carried as opaque functions and never opened;
  * the kernel's rounding of its operands to bf16 is the identity on exact values, and its matrix product into a zero
    accumulator is, entry by entry, the finite sum ∑ₖ M (b, i, k) · D (b, k, c) — the very sum the host's batched
    `dot_general` is (Proof/BatchDot.lean); the 128 written blocks cover the launch's result array
    (Proof/KernelBlocks.lean).
  No law of the extended reals is needed beyond the two sums being the same sum of the same products, so the
  precondition (finite inputs) is never opened; nothing is assumed of the integer graph ids either, since both programs
  index with them in the same way.

  The idealization rewrote nothing, so `preserves` is `True`. The two kernel frames are the generated ones; the
  reference's frame is its run (Proof/RefRun.lean) with the result dropped.
-/
import proofs.«107157_j50173807952912_1_alg».proof.Defs
import proofs.«107157_j50173807952912_1_alg».proof.Proof.Gen.Kernel
import proofs.«107157_j50173807952912_1_alg».proof.Proof.Gen.Kernel.Frame
import proofs.«107157_j50173807952912_1_alg».proof.Proof.Gen.KernelIdeal
import proofs.«107157_j50173807952912_1_alg».proof.Proof.Gen.KernelIdeal.Frame
import proofs.«107157_j50173807952912_1_alg».proof.Proof.Gen.ReferenceIdeal
import proofs.«107157_j50173807952912_1_alg».proof.Proof.Gen.Pre_finite_inputs
import proofs.«107157_j50173807952912_1_alg».proof.Proof.RefRun
import proofs.«107157_j50173807952912_1_alg».proof.Proof.KernelRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and its arguments end as launched: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- The two programs' results are one function of the arguments: the host's batched product is the batched sum of
    products the kernel's blocks add up to, and everything around it is shared. -/
theorem results_agree (x : FVec Ideal Cert.Glue.Feat .f32) (M : FVec Ideal Cert.BatchDot.Mats .f32) (g : IVec Cert.Glue.Nodes 32) :
    Cert.ReferenceIdeal.Hand.result (F := Ideal) x M g = Cert.KernelIdeal.Hand.result x M g := by
  unfold Cert.ReferenceIdeal.Hand.result Cert.KernelIdeal.Hand.result
  refine congrArg (fun y => Cert.Glue.rowsBack Cert.KernelIdeal.Hand.glueFacts y g (Cert.Glue.pos Cert.KernelIdeal.Hand.glueFacts g)) ?_
  exact Cert.BatchDot.dotGeneral_eq_bmm Cert.ReferenceIdeal.Gen.dot_S128x1024x1024_S128x1024x16_S128x1024x16_2_1_1_2_0_0_wf none .single M _

/-- From memories agreeing on the three arguments, both idealized programs run, end with equal results and unchanged
    arguments. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact results_agree _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
